-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x480x640 : Shape := ⟨3, ![64, 480, 640]⟩
abbrev S32x640 : Shape := ⟨2, ![32, 640]⟩
abbrev S_ : Shape := ⟨0, ![]⟩

class Facts : Prop where
  bcast_S_S64x480x640 : S_.BroadcastsInDim S64x480x640 (![] : Fin 0 → Fin S64x480x640.rank)
  reducesTo_S64x480x640_S_d0_1_2 : S64x480x640.ReducesTo [0, 1, 2] S_
  h_S_ : 0 < S_.numel
  bcast_S_S32x640 : S_.BroadcastsInDim S32x640 (![] : Fin 0 → Fin S32x640.rank)
  reducesTo_S32x640_S_d0_1 : S32x640.ReducesTo [0, 1] S_

variable [Facts]

def fn_part1 {F : FTy → Type} [FloatOps F] (main_arg1 : FVec F S64x480x640 .f32) (main_v13 : IVec S_ 1) (main_v15 : IVec S64x480x640 1) (main_cst_5 : FVec F S_ .f32) : IVec S_ 1 :=
  let main_v16 : FVec F S64x480x640 .f32 := broadcastInDim S64x480x640 ![] bcast_S_S64x480x640 main_cst_5
  let main_v17 : IVec S64x480x640 1 := cmpf .oeq main_arg1 main_v16
  let main_v18 : IVec S64x480x640 1 := ori main_v15 main_v17
  let main_c_6 : IVec S_ 1 := constantI S_ 1 1#1
  let main_v19 : IVec S_ 1 := (fun x v => Host.reduce IntOp.andi x v reducesTo_S64x480x640_S_d0_1_2 h_S_) main_v18 main_c_6
  let main_v20 : IVec S_ 1 := andi main_v13 main_v19
  main_v20

def fn {F : FTy → Type} [FloatOps F] (main_arg0 : FVec F S64x480x640 .f32) (main_arg1 : FVec F S64x480x640 .f32) (main_arg2 : FVec F S32x640 .f32) : IVec S_ 1 :=
  let main_v0 : FVec F S64x480x640 .f32 := Host.absf main_arg0
  let main_cst : FVec F S_ .f32 := constant S_ .f32 0x7F800000#32
  let main_v1 : FVec F S64x480x640 .f32 := broadcastInDim S64x480x640 ![] bcast_S_S64x480x640 main_cst
  let main_v2 : IVec S64x480x640 1 := cmpf .olt main_v0 main_v1
  let main_c : IVec S_ 1 := constantI S_ 1 1#1
  let main_v3 : IVec S_ 1 := (fun x v => Host.reduce IntOp.andi x v reducesTo_S64x480x640_S_d0_1_2 h_S_) main_v2 main_c
  let main_v4 : FVec F S64x480x640 .f32 := Host.absf main_arg1
  let main_cst_0 : FVec F S_ .f32 := constant S_ .f32 0x7F800000#32
  let main_v5 : FVec F S64x480x640 .f32 := broadcastInDim S64x480x640 ![] bcast_S_S64x480x640 main_cst_0
  let main_v6 : IVec S64x480x640 1 := cmpf .olt main_v4 main_v5
  let main_c_1 : IVec S_ 1 := constantI S_ 1 1#1
  let main_v7 : IVec S_ 1 := (fun x v => Host.reduce IntOp.andi x v reducesTo_S64x480x640_S_d0_1_2 h_S_) main_v6 main_c_1
  let main_v8 : IVec S_ 1 := andi main_v3 main_v7
  let main_v9 : FVec F S32x640 .f32 := Host.absf main_arg2
  let main_cst_2 : FVec F S_ .f32 := constant S_ .f32 0x7F800000#32
  let main_v10 : FVec F S32x640 .f32 := broadcastInDim S32x640 ![] bcast_S_S32x640 main_cst_2
  let main_v11 : IVec S32x640 1 := cmpf .olt main_v9 main_v10
  let main_c_3 : IVec S_ 1 := constantI S_ 1 1#1
  let main_v12 : IVec S_ 1 := (fun x v => Host.reduce IntOp.andi x v reducesTo_S32x640_S_d0_1 h_S_) main_v11 main_c_3
  let main_v13 : IVec S_ 1 := andi main_v8 main_v12
  let main_cst_4 : FVec F S_ .f32 := constant S_ .f32 0x00000000#32
  let main_v14 : FVec F S64x480x640 .f32 := broadcastInDim S64x480x640 ![] bcast_S_S64x480x640 main_cst_4
  let main_v15 : IVec S64x480x640 1 := cmpf .oeq main_arg1 main_v14
  let main_cst_5 : FVec F S_ .f32 := constant S_ .f32 0x3F800000#32
  fn_part1 (F := F) main_arg1 main_v13 main_v15 main_cst_5
-- ==== Kernel.lean ====
abbrev S64x480x640 : Shape := ⟨3, ![64, 480, 640]⟩
abbrev S32x640 : Shape := ⟨2, ![32, 640]⟩
abbrev S_ : Shape := ⟨0, ![]⟩
abbrev S64x32 : Shape := ⟨2, ![64, 32]⟩
abbrev S16x96x640 : Shape := ⟨3, ![16, 96, 640]⟩
abbrev S16x32 : Shape := ⟨2, ![16, 32]⟩
abbrev S16x640 : Shape := ⟨2, ![16, 640]⟩
abbrev S16x1x640 : Shape := ⟨3, ![16, 1, 640]⟩
abbrev S1x32x640 : Shape := ⟨3, ![1, 32, 640]⟩
abbrev S16x32x640 : Shape := ⟨3, ![16, 32, 640]⟩
abbrev S16x32x1 : Shape := ⟨3, ![16, 32, 1]⟩
abbrev S32 : Shape := ⟨1, ![32]⟩
abbrev S1x32 : Shape := ⟨2, ![1, 32]⟩

abbrev nBuf : Space → Nat
  | .hbm => 22
  | .vmem => 9
  | .smem => 0
  | _ => 0

abbrev bufTy : (tb : Table) → Fin (tcTables nBuf tb) → BufTy
  | .hbm, ⟨0, _⟩ => ⟨S64x480x640, .f32⟩
  | .hbm, ⟨1, _⟩ => ⟨S64x480x640, .f32⟩
  | .hbm, ⟨2, _⟩ => ⟨S32x640, .f32⟩
  | .hbm, ⟨3, _⟩ => ⟨S_, .f32⟩
  | .hbm, ⟨4, _⟩ => ⟨S32x640, .f32⟩
  | .hbm, ⟨5, _⟩ => ⟨S32x640, .f32⟩
  | .hbm, ⟨6, _⟩ => ⟨S32x640, .f32⟩
  | .hbm, ⟨7, _⟩ => ⟨S64x32, .f32⟩
  | .hbm, ⟨8, _⟩ => ⟨S_, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S_, .f32⟩
  | .hbm, ⟨15, _⟩ => ⟨S1x32, .f32⟩
  | .hbm, ⟨16, _⟩ => ⟨S1x32, .i1⟩
  | .hbm, ⟨17, _⟩ => ⟨S_, .f32⟩
  | .hbm, ⟨18, _⟩ => ⟨S_, .f32⟩
  | .hbm, ⟨19, _⟩ => ⟨S64x32, .i1⟩
  | .hbm, ⟨20, _⟩ => ⟨S64x32, .f32⟩
  | .hbm, ⟨21, _⟩ => ⟨S64x32, .f32⟩
  | .local _ .vmem, ⟨0, _⟩ => ⟨S16x96x640, .f32⟩
  | .local _ .vmem, ⟨1, _⟩ => ⟨S16x96x640, .f32⟩
  | .local _ .vmem, ⟨2, _⟩ => ⟨S16x96x640, .f32⟩
  | .local _ .vmem, ⟨3, _⟩ => ⟨S16x96x640, .f32⟩
  | .local _ .vmem, ⟨4, _⟩ => ⟨S32x640, .f32⟩
  | .local _ .vmem, ⟨5, _⟩ => ⟨S16x32, .f32⟩
  | .local _ .vmem, ⟨6, _⟩ => ⟨S16x32, .f32⟩
  | .local _ .vmem, ⟨7, _⟩ => ⟨S16x640, .f32⟩
  | .local _ .vmem, ⟨8, _⟩ => ⟨S16x640, .f32⟩
  | _, _ => ⟨S64x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v32 : BitVec 1 := Scalar.cmpi .eq arg1 c2_i32
  let v33 : BitVec 32 := Scalar.extui v32
  let c0_i32_20 : BitVec 32 := 0#32
  let v34 : BitVec 1 := Scalar.cmpi .ne v33 c0_i32_20
  v34

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x96x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x96x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S32x640 : S_.BroadcastsInDim S32x640 (![] : Fin 0 → Fin S32x640.rank)
  inb_S16x640_S16x640_0_0 : ∀ a, (![0, 0] : Fin 2 → Nat) a + S16x640.size a ≤ S16x640.size a
  h_S16x640 : 0 < S16x640.numel
  shapeCasts_S16x640_S16x640 : S16x640.ShapeCasts S16x640
  inb_S16x96x640_S16x96x640_0_0_0 : ∀ a, (![0, 0, 0] : Fin 3 → Nat) a + S16x96x640.size a ≤ S16x96x640.size a
  h_S16x96x640 : 0 < S16x96x640.numel
  reduces_S16x96x640_S16x640 : S16x96x640.Reduces [1] S16x640
  shapeCasts_S16x640_S16x1x640 : S16x640.ShapeCasts S16x1x640
  broadcasts_S16x1x640_S16x96x640 : S16x1x640.Broadcasts S16x96x640
  inb_S32x640_S32x640_0_0 : ∀ a, (![0, 0] : Fin 2 → Nat) a + S32x640.size a ≤ S32x640.size a
  h_S32x640 : 0 < S32x640.numel
  shapeCasts_S32x640_S32x640 : S32x640.ShapeCasts S32x640
  shapeCasts_S32x640_S1x32x640 : S32x640.ShapeCasts S1x32x640
  broadcasts_S16x1x640_S16x32x640 : S16x1x640.Broadcasts S16x32x640
  broadcasts_S1x32x640_S16x32x640 : S1x32x640.Broadcasts S16x32x640
  reduces_S16x32x640_S16x32 : S16x32x640.Reduces [2] S16x32
  shapeCasts_S16x32_S16x32x1 : S16x32.ShapeCasts S16x32x1
  broadcasts_S16x32x1_S16x32x640 : S16x32x1.Broadcasts S16x32x640
  inb_S16x32_S16x32_0_0 : ∀ a, (![0, 0] : Fin 2 → Nat) a + S16x32.size a ≤ S16x32.size a
  h_S16x32 : 0 < S16x32.numel
  reducesTo_S32x640_S32_d1 : S32x640.ReducesTo [1] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x96x640.size a ≤ S64x480x640.size a
  hwx0_0 : ∀ i : grid0.Coords, EltTy.bits .f32 = 32 ∨ (Rect.block (s := S64x480x640) S16x96x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x96x640.size a ≤ S64x480x640.size a
  hwx0_1 : ∀ i : grid0.Coords, EltTy.bits .f32 = 32 ∨ (Rect.block (s := S64x480x640) S16x96x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x640.size a ≤ S32x640.size a
  hwx0_2 : ∀ i : grid0.Coords, EltTy.bits .f32 = 32 ∨ (Rect.block (s := S32x640) S32x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S64x32.size a
  hwx0_3 : ∀ i : grid0.Coords, EltTy.bits .f32 = 32 ∨ (Rect.block (s := S64x32) S16x32.size (cc0_transform_3 i) (hinb0_3 i)).WholeWords (EltTy.packing .f32)

variable [Facts₀]

abbrev win0_0 : Pipeline.Window sig grid0 :=
  Pipeline.Window.ofSpec (Memref.whole main_arg0) S16x96x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x96x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x480x640 : Shape := ⟨3, ![64, 480, 640]⟩
abbrev S32x640 : Shape := ⟨2, ![32, 640]⟩
abbrev S64x288x640 : Shape := ⟨3, ![64, 288, 640]⟩
abbrev S_ : Shape := ⟨0, ![]⟩
abbrev S64x640 : Shape := ⟨2, ![64, 640]⟩
abbrev S64x1x640 : Shape := ⟨3, ![64, 1, 640]⟩
abbrev S1x32x640 : Shape := ⟨3, ![1, 32, 640]⟩
abbrev S64x32x640 : Shape := ⟨3, ![64, 32, 640]⟩
abbrev S64x32 : Shape := ⟨2, ![64, 32]⟩
abbrev S64x32x1 : Shape := ⟨3, ![64, 32, 1]⟩
abbrev S32 : Shape := ⟨1, ![32]⟩
abbrev S1x32 : Shape := ⟨2, ![1, 32]⟩

abbrev nBuf : Space → Nat
  | .hbm => 73
  | .vmem => 0
  | .smem => 0
  | _ => 0

abbrev bufTy : (tb : Table) → Fin (tcTables nBuf tb) → BufTy
  | .hbm, ⟨0, _⟩ => ⟨S64x480x640, .f32⟩
  | .hbm, ⟨1, _⟩ => ⟨S64x480x640, .f32⟩
  | .hbm, ⟨2, _⟩ => ⟨S32x640, .f32⟩
  | .hbm, ⟨3, _⟩ => ⟨S64x288x640, .f32⟩
  | .hbm, ⟨4, _⟩ => ⟨S64x288x640, .f32⟩
  | .hbm, ⟨5, _⟩ => ⟨S64x288x640, .f32⟩
  | .hbm, ⟨6, _⟩ => ⟨S_, .f32⟩
  | .hbm, ⟨7, _⟩ => ⟨S64x288x640, .f32⟩
  | .hbm, ⟨8, _⟩ => ⟨S64x288x640, .f32⟩
  | .hbm, ⟨9, _⟩ => ⟨S_, .f32⟩
  | .hbm, ⟨10, _⟩ => ⟨S64x288x640, .f32⟩
  | .hbm, ⟨11, _⟩ => ⟨S64x288x640, .f32⟩
  | .hbm, ⟨12, _⟩ => ⟨S64x288x640, .f32⟩
  | .hbm, ⟨13, _⟩ => ⟨S_, .f32⟩
  | .hbm, ⟨14, _⟩ => ⟨S32x640, .f32⟩
  | .hbm, ⟨15, _⟩ => ⟨S32x640, .f32⟩
  | .hbm, ⟨16, _⟩ => ⟨S32x640, .f32⟩
  | .hbm, ⟨17, _⟩ => ⟨S_, .f32⟩
  | .hbm, ⟨18, _⟩ => ⟨S64x288x640, .f32⟩
  | .hbm, ⟨19, _⟩ => ⟨S64x288x640, .f32⟩
  | .hbm, ⟨20, _⟩ => ⟨S_, .f32⟩
  | .hbm, ⟨21, _⟩ => ⟨S64x640, .f32⟩
  | .hbm, ⟨22, _⟩ => ⟨S64x1x640, .f32⟩
  | .hbm, ⟨23, _⟩ => ⟨S64x288x640, .f32⟩
  | .hbm, ⟨24, _⟩ => ⟨S64x288x640, .f32⟩
  | .hbm, ⟨25, _⟩ => ⟨S64x288x640, .f32⟩
  | .hbm, ⟨26, _⟩ => ⟨S64x288x640, .f32⟩
  | .hbm, ⟨27, _⟩ => ⟨S_, .f32⟩
  | .hbm, ⟨28, _⟩ => ⟨S64x640, .f32⟩
  | .hbm, ⟨29, _⟩ => ⟨S64x1x640, .f32⟩
  | .hbm, ⟨30, _⟩ => ⟨S1x32x640, .f32⟩
  | .hbm, ⟨31, _⟩ => ⟨S64x32x640, .f32⟩
  | .hbm, ⟨32, _⟩ => ⟨S64x32x640, .f32⟩
  | .hbm, ⟨33, _⟩ => ⟨S64x32x640, .f32⟩
  | .hbm, ⟨34, _⟩ => ⟨S_, .f32⟩
  | .hbm, ⟨35, _⟩ => ⟨S64x32, .f32⟩
  | .hbm, ⟨36, _⟩ => ⟨S1x32x640, .f32⟩
  | .hbm, ⟨37, _⟩ => ⟨S64x1x640, .f32⟩
  | .hbm, ⟨38, _⟩ => ⟨S64x32x640, .f32⟩
  | .hbm, ⟨39, _⟩ => ⟨S64x32x640, .f32⟩
  | .hbm, ⟨40, _⟩ => ⟨S64x32x640, .f32⟩
  | .hbm, ⟨41, _⟩ => ⟨S64x32x1, .f32⟩
  | .hbm, ⟨42, _⟩ => ⟨S64x32x640, .f32⟩
  | .hbm, ⟨43, _⟩ => ⟨S64x32x640, .f32⟩
  | .hbm, ⟨44, _⟩ => ⟨S64x32x640, .f32⟩
  | .hbm, ⟨45, _⟩ => ⟨S64x1x640, .f32⟩
  | .hbm, ⟨46, _⟩ => ⟨S64x32x640, .f32⟩
  | .hbm, ⟨47, _⟩ => ⟨S64x32x640, .f32⟩
  | .hbm, ⟨48, _⟩ => ⟨S_, .f32⟩
  | .hbm, ⟨49, _⟩ => ⟨S64x32, .f32⟩
  | .hbm, ⟨50, _⟩ => ⟨S_, .f32⟩
  | .hbm, ⟨51, _⟩ => ⟨S64x32, .f32⟩
  | .hbm, ⟨52, _⟩ => ⟨S64x32, .f32⟩
  | .hbm, ⟨53, _⟩ => ⟨S64x32, .f32⟩
  | .hbm, ⟨54, _⟩ => ⟨S64x32, .f32⟩
  | .hbm, ⟨55, _⟩ => ⟨S64x32, .f32⟩
  | .hbm, ⟨56, _⟩ => ⟨S_, .f32⟩
  | .hbm, ⟨57, _⟩ => ⟨S64x32, .f32⟩
  | .hbm, ⟨58, _⟩ => ⟨S64x32, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S1x32, .f32⟩
  | .hbm, ⟨65, _⟩ => ⟨S_, .f32⟩
  | .hbm, ⟨66, _⟩ => ⟨S1x32, .f32⟩
  | .hbm, ⟨67, _⟩ => ⟨S1x32, .i1⟩
  | .hbm, ⟨68, _⟩ => ⟨S_, .f32⟩
  | .hbm, ⟨69, _⟩ => ⟨S_, .f32⟩
  | .hbm, ⟨70, _⟩ => ⟨S64x32, .i1⟩
  | .hbm, ⟨71, _⟩ => ⟨S64x32, .f32⟩
  | .hbm, ⟨72, _⟩ => ⟨S64x32, .f32⟩
  | _, _ => ⟨S64x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S64x480x640_S64x288x640_0_192_0 : S64x480x640.Slices ![0, 192, 0] S64x288x640
  bcast_S_S64x288x640 : S_.BroadcastsInDim S64x288x640 (![] : Fin 0 → Fin S64x288x640.rank)
  bcast_S_S32x640 : S_.BroadcastsInDim S32x640 (![] : Fin 0 → Fin S32x640.rank)
  reducesTo_S64x288x640_S64x640_d1 : S64x288x640.ReducesTo [1] S64x640
  h_S_ : 0 < S_.numel
  bcast_S64x640_S64x1x640_0_2 : S64x640.BroadcastsInDim S64x1x640 (![0, 2] : Fin 2 → Fin S64x1x640.rank)
  bcast_S64x1x640_S64x288x640_0_1_2 : S64x1x640.BroadcastsInDim S64x288x640 (![0, 1, 2] : Fin 3 → Fin S64x288x640.rank)
  bcast_S32x640_S1x32x640_1_2 : S32x640.BroadcastsInDim S1x32x640 (![1, 2] : Fin 2 → Fin S1x32x640.rank)
  bcast_S64x1x640_S64x32x640_0_1_2 : S64x1x640.BroadcastsInDim S64x32x640 (![0, 1, 2] : Fin 3 → Fin S64x32x640.rank)
  bcast_S1x32x640_S64x32x640_0_1_2 : S1x32x640.BroadcastsInDim S64x32x640 (![0, 1, 2] : Fin 3 → Fin S64x32x640.rank)
  reducesTo_S64x32x640_S64x32_d2 : S64x32x640.ReducesTo [2] S64x32
  bcast_S64x32_S64x32x1_0_1 : S64x32.BroadcastsInDim S64x32x1 (![0, 1] : Fin 2 → Fin S64x32x1.rank)
  bcast_S64x32x1_S64x32x640_0_1_2 : S64x32x1.BroadcastsInDim S64x32x640 (![0, 1, 2] : Fin 3 → Fin S64x32x640.rank)
  bcast_S_S64x32 : S_.BroadcastsInDim S64x32 (![] : Fin 0 → Fin S64x32.rank)
  reducesTo_S32x640_S32_d1 : S32x640.ReducesTo [1] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S64x32_0_1 : S1x32.BroadcastsInDim S64x32 (![0, 1] : Fin 2 → Fin S64x32.rank)

variable [Facts₀]

class Facts : Prop extends Facts₀ where

variable [Facts]
-- ==== Proof.Spec.lean ====
/-
  The specification both programs are read against, index by index, over the extended reals.

  Inputs: a depth image `D` and a validity mask `K` (64 batches × 480 rows × 640 columns) and bin weights `W`
  (32 bins × 640 columns). Only the bottom 288 rows count: cropped row `h` is image row `192 + h`.

  Two-pass form (the order of the plain array program). Per pixel `neg = −20 · (D·K + (1 − K)·100)`: an invalid pixel
  reads as 100 m. Per batch and column, `colMax = max over the 288 rows of neg` and
  `colSum = 0 + Σ over the rows of exp (neg − colMax) · K`. Per batch and bin, with `logW = log (W + ε)`,
  `binMax = max over the columns of (colMax + logW)`, `binSum = 0 + Σ over the columns of exp ((logW + colMax) − binMax) · colSum`,
  and the clearance is `−(binMax + log (binSum + ε)) / 20`.

  Three-step form (the order of the blocked program). Per pixel `neg = if 0 < K then −20 · D else −2000`. The 288 rows
  are three blocks of 96; a running maximum and a running rescaled sum start at (−∞, 0) and are stepped once per
  block: `m' = max m (max over the block of neg)`, `l' = l · exp (m − m') + Σ over the block of exp (neg − m') · K`. The
  combine is the same as above but spelled `m + logW`, a sum with no initial term, and `0 − x` for the negation.

  The float literals are kept as their 32-bit words (the same word on both sides is never evaluated).
-/
import Idealize.ShloMosaic.PureOps.Ideal
import Idealize.ShloMosaic.Lib.ValueIdx

noncomputable section

open scoped BigOperators

namespace Cert.Spec

open Idealize.ShloMosaic Idealize.ShloMosaic.ValueIdx

/-- the shape of the depth image and of the mask -/
abbrev SImg : Shape := ⟨3, ![64, 480, 640]⟩
/-- the shape of the bin weights -/
abbrev SBin : Shape := ⟨2, ![32, 640]⟩

/-- −20.0 -/
abbrev kNeg20 : EReal := Ideal.ofBits .f32 0xC1A00000#32
/-- −2000.0 -/
abbrev kNeg2000 : EReal := Ideal.ofBits .f32 0xC4FA0000#32
/-- 100.0 -/
abbrev k100 : EReal := Ideal.ofBits .f32 0x42C80000#32
/-- 1.0 -/
abbrev k1 : EReal := Ideal.ofBits .f32 0x3F800000#32
/-- 0.0 -/
abbrev k0 : EReal := Ideal.ofBits .f32 0x00000000#32
/-- −∞ -/
abbrev kNegInf : EReal := Ideal.ofBits .f32 0xFF800000#32
/-- the f32 nearest 1e-10 -/
abbrev kEps : EReal := Ideal.ofBits .f32 0x2EDBE6FF#32
/-- 20.0 -/
abbrev k20 : EReal := Ideal.ofBits .f32 0x41A00000#32

variable (D K : SImg.Idx → EReal) (W : SBin.Idx → EReal)

/-- cropped row `h` is image row `192 + h` -/
def row (h : Fin 288) : Fin 480 := ⟨192 + h.val, by omega⟩

/-- row `j` of row block `r` of the crop -/
def brow (r : Fin 3) (j : Fin 96) : Fin 288 := ⟨96 * r.val + j.val, by omega⟩

/-! ## The two-pass form -/

/-- `−20 · (D·K + (1 − K)·100)` -/
def negBlend (b : Fin 64) (h : Fin 288) (w : Fin 640) : EReal :=
  kNeg20 * (D (ix3 b (row h) w) * K (ix3 b (row h) w) + (k1 - K (ix3 b (row h) w)) * k100)

/-- the column's maximum over the cropped rows -/
def colMax (b : Fin 64) (w : Fin 640) : EReal :=
  (Finset.univ : Finset (Fin 288)).fold max kNegInf (fun h => negBlend D K b h w)

/-- the column's masked sum of exponentials shifted by its maximum -/
def colSum (b : Fin 64) (w : Fin 640) : EReal :=
  k0 + ∑ h : Fin 288, Ideal.exp (negBlend D K b h w - colMax D K b w) * K (ix3 b (row h) w)

/-- the log of a bin weight -/
def logW (n : Fin 32) (w : Fin 640) : EReal := Ideal.log (W (ix2 n w) + kEps)

/-- the bin's maximum over the columns -/
def binMax (b : Fin 64) (n : Fin 32) : EReal :=
  (Finset.univ : Finset (Fin 640)).fold max kNegInf (fun w => colMax D K b w + logW W n w)

/-- the bin's weighted sum over the columns -/
def binSum (b : Fin 64) (n : Fin 32) : EReal :=
  k0 + ∑ w : Fin 640, Ideal.exp ((logW W n w + colMax D K b w) - binMax D K W b n) * colSum D K b w

/-- the clearance of batch `b` in bin `n` -/
def clearance (b : Fin 64) (n : Fin 32) : EReal :=
  Ideal.div (-(binMax D K W b n + Ideal.log (binSum D K W b n + kEps))) k20

/-! ## The three-step form -/

/-- `if 0 < K then −20 · D else −2000` -/
def negSel (b : Fin 64) (h : Fin 288) (w : Fin 640) : EReal :=
  if k0 < K (ix3 b (row h) w) then kNeg20 * D (ix3 b (row h) w) else kNeg2000

/-- the maximum of `negSel` over row block `r` -/
def blockMax (b : Fin 64) (r : Fin 3) (w : Fin 640) : EReal :=
  (Finset.univ : Finset (Fin 96)).fold max kNegInf (fun j => negSel D K b (brow r j) w)

/-- the masked sum over row block `r` of the exponentials shifted by `μ` -/
def blockSum (b : Fin 64) (r : Fin 3) (w : Fin 640) (μ : EReal) : EReal :=
  ∑ j : Fin 96, Ideal.exp (negSel D K b (brow r j) w - μ) * K (ix3 b (row (brow r j)) w)

/-- the running maximum after the first block -/
def run1Max (b : Fin 64) (w : Fin 640) : EReal := max kNegInf (blockMax D K b 0 w)
/-- the running sum after the first block -/
def run1Sum (b : Fin 64) (w : Fin 640) : EReal :=
  k0 * Ideal.exp (kNegInf - run1Max D K b w) + blockSum D K b 0 w (run1Max D K b w)
/-- the running maximum after the second block -/
def run2Max (b : Fin 64) (w : Fin 640) : EReal := max (run1Max D K b w) (blockMax D K b 1 w)
/-- the running sum after the second block -/
def run2Sum (b : Fin 64) (w : Fin 640) : EReal :=
  run1Sum D K b w * Ideal.exp (run1Max D K b w - run2Max D K b w) + blockSum D K b 1 w (run2Max D K b w)
/-- the running maximum after the third block -/
def run3Max (b : Fin 64) (w : Fin 640) : EReal := max (run2Max D K b w) (blockMax D K b 2 w)
/-- the running sum after the third block -/
def run3Sum (b : Fin 64) (w : Fin 640) : EReal :=
  run2Sum D K b w * Ideal.exp (run2Max D K b w - run3Max D K b w) + blockSum D K b 2 w (run3Max D K b w)

/-- the bin's maximum, over the stepped column maximum -/
def binMax3 (b : Fin 64) (n : Fin 32) : EReal :=
  (Finset.univ : Finset (Fin 640)).fold max kNegInf (fun w => run3Max D K b w + logW W n w)

/-- the bin's weighted sum, over the stepped column quantities -/
def binSum3 (b : Fin 64) (n : Fin 32) : EReal :=
  ∑ w : Fin 640, Ideal.exp ((run3Max D K b w + logW W n w) - binMax3 D K W b n) * run3Sum D K b w

/-- the clearance in the three-step form -/
def clearance3 (b : Fin 64) (n : Fin 32) : EReal :=
  Ideal.div (k0 - (binMax3 D K W b n + Ideal.log (binSum3 D K W b n + kEps))) k20

end Cert.Spec

end
-- ==== Proof.PreFacts.lean ====
/-
  The precondition, decoded entry by entry.

  The certificate's precondition is one bit: the conjunction, over every entry, of |depth| < +∞, |mask| < +∞,
  |weight| < +∞ and (mask = 0 or mask = 1), each "for all entries" spelled as a reduction with "and" over the array.
  That bit being 1 says: every depth and every weight is a real number (neither infinity), and every mask entry is
  exactly 0 or exactly 1.
-/
import proofs.«102616_j69973607186476_2_alg».proof.Pre_finite_inputs
import proofs.«102616_j69973607186476_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.PreFacts

open Idealize.ShloMosaic Idealize.ShloMosaic.ValueIdx
open Cert.Pre_finite_inputs

/-- The rank-0 shape has one index. -/
instance : Subsingleton S_.Idx := ⟨fun a b => funext fun d => d.elim0⟩

/-- The f32 pattern with exponent all ones, fraction zero, sign clear is +∞. -/
theorem ofBits_posInf : Ideal.ofBits .f32 0x7F800000#32 = (⊤ : EReal) := by
  simp [Ideal.ofBits, Ideal.ieee]

/-- The all-zero f32 pattern is 0. -/
theorem ofBits_zero : Ideal.ofBits .f32 0x00000000#32 = (0 : EReal) := Ideal.ofBits_zero_f32

/-- The f32 pattern sign 0, exponent 127, fraction 0 is (2^23 + 0) * 2^(127 - 127 - 23) = 1. -/
theorem ofBits_one : Ideal.ofBits .f32 0x3F800000#32 = (1 : EReal) := Ideal.ofBits_one_f32

/-- A one-bit word made from a boolean is 1 exactly when the boolean is true. -/
theorem ofBool_eq_one (b : Bool) : BitVec.ofBool b = 1#1 ↔ b = true := by cases b <;> decide

/-- The bit of the ordered comparison a < b is 1 exactly when a < b. -/
theorem cmp_olt_eq_one (a b : EReal) : Ideal.cmp .olt a b = 1#1 ↔ a < b := by
  unfold Ideal.cmp
  rw [ofBool_eq_one, decide_eq_true_eq]

/-- The bit of the ordered comparison a = b is 1 exactly when a = b. -/
theorem cmp_oeq_eq_one (a b : EReal) : Ideal.cmp .oeq a b = 1#1 ↔ a = b := by
  unfold Ideal.cmp
  rw [ofBool_eq_one, decide_eq_true_eq]

/-- An extended real whose absolute value max x (-x) is below +∞ is neither infinity. -/
theorem ne_top_bot_of_abs_lt (x : EReal) (hx : max x (-x) < ⊤) : x ≠ ⊤ ∧ x ≠ ⊥ := by
  constructor
  · rintro rfl; simp at hx
  · rintro rfl; simp at hx

/-- An extended real whose absolute value max x (-x) is below +∞ is a real. -/
theorem real_of_abs_lt (x : EReal) (hx : max x (-x) < ⊤) : ∃ r : ℝ, x = ((r : ℝ) : EReal) := by
  obtain ⟨ht, hb⟩ := ne_top_bot_of_abs_lt x hx
  induction x using EReal.rec with
  | bot => exact absurd rfl hb
  | coe r => exact ⟨r, rfl⟩
  | top => exact absurd rfl ht

variable [Cert.Pre_finite_inputs.Facts]

/-- The precondition decoded: every entry of each argument has absolute value below +∞, and every entry of the second
    argument is 0 or 1. -/
theorem decode (x0 x1 : FVec Ideal S64x480x640 .f32) (x2 : FVec Ideal S32x640 .f32)
    (h : Cert.Pre_finite_inputs.fn (F := Ideal) x0 x1 x2 = fun _ => 1#1) :
    (∀ i : S64x480x640.Idx, max (x0 i : EReal) (-(x0 i : EReal)) < ⊤)
    ∧ (∀ i : S64x480x640.Idx, max (x1 i : EReal) (-(x1 i : EReal)) < ⊤)
    ∧ (∀ i : S32x640.Idx, max (x2 i : EReal) (-(x2 i : EReal)) < ⊤)
    ∧ (∀ i : S64x480x640.Idx, (x1 i : EReal) = 0 ∨ (x1 i : EReal) = 1) := by
  have e := congrFun h ix0
  dsimp only [fn, fn_part1] at e
  change IntOp.andi (IntOp.andi (IntOp.andi _ _) _) _ = 1#1 at e
  rw [IntOp.andi_eq_one, IntOp.andi_eq_one, IntOp.andi_eq_one] at e
  obtain ⟨⟨⟨e0, e1⟩, e2⟩, e3⟩ := e
  refine ⟨fun i => ?_, fun i => ?_, fun i => ?_, fun i => ?_⟩
  · have b := Host.reduce_andi_all _ _ _ _ _ e0 i
    rw [cmpf_apply, broadcastInDim_scalar_apply, constant_apply, ofBits_posInf] at b
    exact (cmp_olt_eq_one _ _).1 b
  · have b := Host.reduce_andi_all _ _ _ _ _ e1 i
    rw [cmpf_apply, broadcastInDim_scalar_apply, constant_apply, ofBits_posInf] at b
    exact (cmp_olt_eq_one _ _).1 b
  · have b := Host.reduce_andi_all _ _ _ _ _ e2 i
    rw [cmpf_apply, broadcastInDim_scalar_apply, constant_apply, ofBits_posInf] at b
    exact (cmp_olt_eq_one _ _).1 b
  · have b := Host.reduce_andi_all _ _ _ _ _ e3 i
    change IntOp.ori _ _ = 1#1 at b
    rw [IntOp.ori_eq_one, cmpf_apply, cmpf_apply, broadcastInDim_scalar_apply, broadcastInDim_scalar_apply,
      constant_apply, constant_apply, ofBits_zero, ofBits_one] at b
    exact b.imp (cmp_oeq_eq_one _ _).1 (cmp_oeq_eq_one _ _).1

/-- Every entry of the first argument is a real. -/
theorem depth_real (x0 x1 : FVec Ideal S64x480x640 .f32) (x2 : FVec Ideal S32x640 .f32)
    (h : Cert.Pre_finite_inputs.fn (F := Ideal) x0 x1 x2 = fun _ => 1#1) (i : S64x480x640.Idx) :
    ∃ r : ℝ, (x0 i : EReal) = ((r : ℝ) : EReal) :=
  real_of_abs_lt _ ((decode x0 x1 x2 h).1 i)

/-- Every entry of the second argument is 0 or 1. -/
theorem mask_binary (x0 x1 : FVec Ideal S64x480x640 .f32) (x2 : FVec Ideal S32x640 .f32)
    (h : Cert.Pre_finite_inputs.fn (F := Ideal) x0 x1 x2 = fun _ => 1#1) (i : S64x480x640.Idx) :
    (x1 i : EReal) = 0 ∨ (x1 i : EReal) = 1 :=
  (decode x0 x1 x2 h).2.2.2 i

/-- Every entry of the first argument is neither infinity. -/
theorem depth_ne (x0 x1 : FVec Ideal S64x480x640 .f32) (x2 : FVec Ideal S32x640 .f32)
    (h : Cert.Pre_finite_inputs.fn (F := Ideal) x0 x1 x2 = fun _ => 1#1) (i : S64x480x640.Idx) :
    (x0 i : EReal) ≠ ⊤ ∧ (x0 i : EReal) ≠ ⊥ :=
  ne_top_bot_of_abs_lt _ ((decode x0 x1 x2 h).1 i)

/-- Every entry of the third argument is a real. -/
theorem weights_real (x0 x1 : FVec Ideal S64x480x640 .f32) (x2 : FVec Ideal S32x640 .f32)
    (h : Cert.Pre_finite_inputs.fn (F := Ideal) x0 x1 x2 = fun _ => 1#1) (i : S32x640.Idx) :
    ∃ r : ℝ, (x2 i : EReal) = ((r : ℝ) : EReal) :=
  real_of_abs_lt _ ((decode x0 x1 x2 h).2.2.1 i)

/-- Every entry of the third argument is neither infinity. -/
theorem weights_ne (x0 x1 : FVec Ideal S64x480x640 .f32) (x2 : FVec Ideal S32x640 .f32)
    (h : Cert.Pre_finite_inputs.fn (F := Ideal) x0 x1 x2 = fun _ => 1#1) (i : S32x640.Idx) :
    (x2 i : EReal) ≠ ⊤ ∧ (x2 i : EReal) ≠ ⊥ :=
  ne_top_bot_of_abs_lt _ ((decode x0 x1 x2 h).2.2.1 i)

end Cert.PreFacts

end
-- ==== Proof.ColumnLaw.lean ====
/-
  The law that joins the two column reductions: a log-sum-exp accumulated block by block with a running
  maximum and a rescaled running sum equals the two-pass form (the maximum over all rows, then the sum of
  the exponentials shifted by it), over the reals.
-/
import Mathlib.Analysis.SpecialFunctions.Exp
import Mathlib.Data.EReal.Operations
import Mathlib.Algebra.BigOperators.Fin
import Mathlib.Logic.Equiv.Fin.Basic
import Mathlib.Data.Finset.Lattice.Fold

namespace Cert.ColumnLaw

/-! ### Coercion of finite sums and finite maxima of reals into the extended reals -/

/-- a finite sum of coerced reals is the coercion of the real sum (over a finite set) -/
theorem finset_sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- a finite sum of coerced reals is the coercion of the real sum (over a finite index type) -/
theorem sum_coe {ι : Type*} [Fintype ι] (f : ι → ℝ) :
    ∑ i, ((f i : ℝ) : EReal) = ((∑ i, f i : ℝ) : EReal) :=
  finset_sum_coe Finset.univ f

/-- the coercion commutes with the binary maximum -/
theorem coe_max (a b : ℝ) : max (a : EReal) (b : EReal) = ((max a b : ℝ) : EReal) :=
  (EReal.coe_strictMono.monotone.map_max).symm

/-- the maximum of a nonempty finite family of reals -/
noncomputable def rmax {ι : Type*} [Fintype ι] [Nonempty ι] (f : ι → ℝ) : ℝ :=
  Finset.univ.sup' Finset.univ_nonempty f

/-- the fold of max from bottom over a nonempty finite family of coerced reals is the coercion of
the real maximum of the family -/
theorem fold_max_coe {ι : Type*} [Fintype ι] [Nonempty ι] (f : ι → ℝ) :
    (Finset.univ : Finset ι).fold max (⊥ : EReal) (fun i => ((f i : ℝ) : EReal))
      = ((rmax f : ℝ) : EReal) := by
  have h1 : (Finset.univ : Finset ι).fold max (⊥ : EReal) (fun i => ((f i : ℝ) : EReal))
      = (Finset.univ : Finset ι).sup (fun i => ((f i : ℝ) : EReal)) := rfl
  rw [h1, ← Finset.sup'_eq_sup Finset.univ_nonempty]
  unfold rmax
  exact (Finset.comp_sup'_eq_sup'_comp Finset.univ_nonempty (fun x : ℝ => (x : EReal))
    (fun x y => (coe_max x y).symm)).symm

/-! ### Blocks of a column -/

/-- row j of block r of a column of 288 rows -/
def blk (X : Fin 288 → ℝ) (r : Fin 3) (j : Fin 96) : ℝ := X ⟨96 * r.val + j.val, by omega⟩

/-- the pair (block, row in block) to row bijection sends (r, j) to row 96 * r + j -/
theorem blk_eq (X : Fin 288 → ℝ) (r : Fin 3) (j : Fin 96) :
    blk X r j = X ((finProdFinEquiv : Fin 3 × Fin 96 ≃ Fin 288) (r, j)) := by
  unfold blk
  congr 1
  apply Fin.ext
  simp only [finProdFinEquiv_apply_val]
  omega

/-- a sum over the 288 rows is the sum of the three block sums -/
theorem sum_blocks (X : Fin 288 → ℝ) :
    ∑ h, X h = ∑ j, blk X 0 j + ∑ j, blk X 1 j + ∑ j, blk X 2 j := by
  rw [← Equiv.sum_comp (finProdFinEquiv : Fin 3 × Fin 96 ≃ Fin 288) X, Fintype.sum_prod_type,
    Fin.sum_univ_three]
  simp only [blk_eq]

/-- the maximum over the 288 rows is the maximum of the three block maxima -/
theorem rmax_blocks (X : Fin 288 → ℝ) :
    rmax X = max (max (rmax (blk X 0)) (rmax (blk X 1))) (rmax (blk X 2)) := by
  have hle : ∀ r j, blk X r j ≤ rmax (blk X r) := fun r j =>
    Finset.le_sup' (blk X r) (Finset.mem_univ j)
  apply le_antisymm
  · apply Finset.sup'_le
    intro h _
    obtain ⟨⟨r, j⟩, rfl⟩ := (finProdFinEquiv : Fin 3 × Fin 96 ≃ Fin 288).surjective h
    rw [← blk_eq X r j]
    have hr := hle r j
    fin_cases r
    · exact le_max_of_le_left (le_max_of_le_left hr)
    · exact le_max_of_le_left (le_max_of_le_right hr)
    · exact le_max_of_le_right hr
  · have hblk : ∀ r, rmax (blk X r) ≤ rmax X := fun r =>
      Finset.sup'_le _ _ fun j _ => by
        rw [blk_eq]; exact Finset.le_sup' X (Finset.mem_univ _)
    exact max_le (max_le (hblk 0) (hblk 1)) (hblk 2)

/-! ### The law over the reals -/

/-- moving the shift of a block sum of shifted exponentials from x to y -/
theorem shift (f g : Fin 96 → ℝ) (x y : ℝ) :
    (∑ j, Real.exp (f j - x) * g j) * Real.exp (x - y) = ∑ j, Real.exp (f j - y) * g j := by
  rw [Finset.sum_mul]
  refine Finset.sum_congr rfl fun j _ => ?_
  rw [mul_right_comm, ← Real.exp_add]
  congr 2
  ring

/-- the online accumulation over three blocks with shifts a, b, c equals the one-pass sum shifted by c -/
theorem real_law (F G : Fin 288 → ℝ) (a b c : ℝ) :
    ((∑ j, Real.exp (blk F 0 j - a) * blk G 0 j) * Real.exp (a - b)
        + ∑ j, Real.exp (blk F 1 j - b) * blk G 1 j) * Real.exp (b - c)
        + ∑ j, Real.exp (blk F 2 j - c) * blk G 2 j
      = ∑ h, Real.exp (F h - c) * G h := by
  rw [shift, add_mul, shift, shift, sum_blocks (fun h => Real.exp (F h - c) * G h)]
  rfl

/-! ### The law over the extended reals -/

section
variable (E : EReal → EReal) (hE : ∀ x : ℝ, E (x : EReal) = ((Real.exp x : ℝ) : EReal))
include hE

/-- a block sum of shifted exponentials of coerced reals is the coercion of the real block sum -/
theorem block_sum_coe (f g : Fin 96 → ℝ) (b : ℝ) :
    ∑ j, E (((f j : ℝ) : EReal) - (b : EReal)) * ((g j : ℝ) : EReal)
      = ((∑ j, Real.exp (f j - b) * g j : ℝ) : EReal) := by
  rw [← sum_coe]
  refine Finset.sum_congr rfl fun j _ => ?_
  rw [← EReal.coe_sub, hE, ← EReal.coe_mul]

/-- one step of the accumulation on coerced reals is the coercion of the real step -/
theorem step_coe (f g : Fin 96 → ℝ) (l a b : ℝ) :
    (l : EReal) * E ((a : EReal) - (b : EReal))
        + ∑ j, E (((f j : ℝ) : EReal) - (b : EReal)) * ((g j : ℝ) : EReal)
      = ((l * Real.exp (a - b) + ∑ j, Real.exp (f j - b) * g j : ℝ) : EReal) := by
  rw [block_sum_coe E hE, ← EReal.coe_sub, hE, ← EReal.coe_mul, ← EReal.coe_add]

end

/-- the maximum over all rows, computed as a fold from bottom, is the coercion of a real -/
theorem fold_max_real (F : Fin 288 → ℝ) :
    ∃ μ : ℝ, (Finset.univ : Finset (Fin 288)).fold max (⊥ : EReal) (fun h => ((F h : ℝ) : EReal))
      = (μ : EReal) :=
  ⟨rmax F, fold_max_coe F⟩

/-- the online log-sum-exp over three blocks of 96 rows equals the two-pass form over all 288 rows -/
theorem online_eq_twopass (E : EReal → EReal)
    (hE : ∀ x : ℝ, E (x : EReal) = ((Real.exp x : ℝ) : EReal)) (F G : Fin 288 → ℝ) :
    let lm : Fin 3 → EReal := fun r =>
      (Finset.univ : Finset (Fin 96)).fold max (⊥ : EReal) (fun j => ((blk F r j : ℝ) : EReal))
    let M1 : EReal := max ⊥ (lm 0)
    let L1 : EReal := (0 : EReal) * E (⊥ - M1)
      + ∑ j : Fin 96, E (((blk F 0 j : ℝ) : EReal) - M1) * ((blk G 0 j : ℝ) : EReal)
    let M2 : EReal := max M1 (lm 1)
    let L2 : EReal := L1 * E (M1 - M2)
      + ∑ j : Fin 96, E (((blk F 1 j : ℝ) : EReal) - M2) * ((blk G 1 j : ℝ) : EReal)
    let M3 : EReal := max M2 (lm 2)
    let L3 : EReal := L2 * E (M2 - M3)
      + ∑ j : Fin 96, E (((blk F 2 j : ℝ) : EReal) - M3) * ((blk G 2 j : ℝ) : EReal)
    let Mtot : EReal :=
      (Finset.univ : Finset (Fin 288)).fold max (⊥ : EReal) (fun h => ((F h : ℝ) : EReal))
    M3 = Mtot ∧ L3 = 0 + ∑ h : Fin 288, E (((F h : ℝ) : EReal) - Mtot) * ((G h : ℝ) : EReal) := by
  intro lm M1 L1 M2 L2 M3 L3 Mtot
  have hlm : ∀ r, lm r = ((rmax (blk F r) : ℝ) : EReal) := fun r => fold_max_coe (blk F r)
  have hMtot : Mtot = ((rmax F : ℝ) : EReal) := fold_max_coe F
  have hM1 : M1 = ((rmax (blk F 0) : ℝ) : EReal) := by
    show max ⊥ (lm 0) = _
    rw [hlm, max_eq_right bot_le]
  have hM2 : M2 = ((max (rmax (blk F 0)) (rmax (blk F 1)) : ℝ) : EReal) := by
    show max M1 (lm 1) = _
    rw [hM1, hlm, coe_max]
  have hM3 : M3 = ((rmax F : ℝ) : EReal) := by
    show max M2 (lm 2) = _
    rw [hM2, hlm, coe_max, ← rmax_blocks]
  have hL1 : L1 = ((∑ j, Real.exp (blk F 0 j - rmax (blk F 0)) * blk G 0 j : ℝ) : EReal) := by
    show (0 : EReal) * E (⊥ - M1)
      + ∑ j : Fin 96, E (((blk F 0 j : ℝ) : EReal) - M1) * ((blk G 0 j : ℝ) : EReal) = _
    rw [zero_mul, zero_add, hM1]
    exact block_sum_coe E hE (blk F 0) (blk G 0) _
  have hL2 : L2 = (((∑ j, Real.exp (blk F 0 j - rmax (blk F 0)) * blk G 0 j)
        * Real.exp (rmax (blk F 0) - max (rmax (blk F 0)) (rmax (blk F 1)))
      + ∑ j, Real.exp (blk F 1 j - max (rmax (blk F 0)) (rmax (blk F 1))) * blk G 1 j : ℝ) : EReal) := by
    show L1 * E (M1 - M2)
      + ∑ j : Fin 96, E (((blk F 1 j : ℝ) : EReal) - M2) * ((blk G 1 j : ℝ) : EReal) = _
    rw [hL1, hM1, hM2]
    exact step_coe E hE (blk F 1) (blk G 1) _ _ _
  refine ⟨hM3.trans hMtot.symm, ?_⟩
  show L2 * E (M2 - M3)
      + ∑ j : Fin 96, E (((blk F 2 j : ℝ) : EReal) - M3) * ((blk G 2 j : ℝ) : EReal) = _
  rw [hL2, hM2, hM3, hMtot, step_coe E hE (blk F 2) (blk G 2), real_law, zero_add, ← sum_coe]
  refine Finset.sum_congr rfl fun h _ => ?_
  rw [← EReal.coe_sub, hE, ← EReal.coe_mul]

end Cert.ColumnLaw
-- ==== Proof.Bridge.lean ====
/-
  The bridge between the two forms of the specification: the float words as extended reals, the per-pixel
  selection equal to the per-pixel blend on a 0/1 mask, the three-step column maximum and sum equal to the
  two-pass ones, and the two clearances equal.
-/
import proofs.«102616_j69973607186476_2_alg».proof.Proof.Spec
import proofs.«102616_j69973607186476_2_alg».proof.Proof.ColumnLaw
import Idealize.ShloMosaic.PureOps.Ideal
import Idealize.ShloMosaic.PureOps.Ideal.Laws
import Idealize.ShloMosaic.Lib.IdealHost

noncomputable section

namespace Cert.Bridge

open Idealize.ShloMosaic Idealize.ShloMosaic.ValueIdx

/-! ### The float words as extended reals -/

/-- sign 1, exponent 131, fraction 2097152: −(2^23 + 2097152) · 2^(131 − 150) = −20 -/
theorem kNeg20_eq : Cert.Spec.kNeg20 = ((-20 : ℝ) : EReal) := by
  show Ideal.ofBits .f32 0xC1A00000#32 = _
  simp [Ideal.ofBits, Ideal.ieee, -EReal.coe_mul, -EReal.coe_neg]; norm_num

/-- sign 1, exponent 137, fraction 7995392: −(2^23 + 7995392) · 2^(137 − 150) = −2000 -/
theorem kNeg2000_eq : Cert.Spec.kNeg2000 = ((-2000 : ℝ) : EReal) := by
  show Ideal.ofBits .f32 0xC4FA0000#32 = _
  simp [Ideal.ofBits, Ideal.ieee, -EReal.coe_mul, -EReal.coe_neg]; norm_num

/-- sign 0, exponent 133, fraction 4718592: (2^23 + 4718592) · 2^(133 − 150) = 100 -/
theorem k100_eq : Cert.Spec.k100 = ((100 : ℝ) : EReal) := by
  show Ideal.ofBits .f32 0x42C80000#32 = _
  simp [Ideal.ofBits, Ideal.ieee, -EReal.coe_mul, -EReal.coe_neg]; norm_num

/-- sign 0, exponent 127, fraction 0 is 1 -/
theorem k1_eq : Cert.Spec.k1 = 1 := Ideal.ofBits_one_f32

/-- the all-zero word is 0 -/
theorem k0_eq : Cert.Spec.k0 = 0 := Ideal.ofBits_zero_f32

/-- sign 1, exponent all ones, fraction 0 is −∞ -/
theorem kNegInf_eq : Cert.Spec.kNegInf = ⊥ := by
  show Ideal.ofBits .f32 0xFF800000#32 = _
  simp [Ideal.ofBits, Ideal.ieee]

/-! ### The per-pixel selection and the per-pixel blend -/

/-- on a mask value 0 or 1 and a real depth d, the selection (−20·d where the mask is positive, else −2000)
equals the blend −20·(d·k + (1 − k)·100), and is a real -/
theorem sel_eq_blend (d : ℝ) (k : EReal) (hk : k = 0 ∨ k = 1) :
    (if (0 : EReal) < k then ((-20 : ℝ) : EReal) * (d : EReal) else ((-2000 : ℝ) : EReal))
        = ((-20 : ℝ) : EReal) * ((d : EReal) * k + (1 - k) * ((100 : ℝ) : EReal))
      ∧ ∃ r : ℝ, (if (0 : EReal) < k then ((-20 : ℝ) : EReal) * (d : EReal) else ((-2000 : ℝ) : EReal))
        = (r : EReal) := by
  rcases hk with rfl | rfl
  · rw [if_neg (lt_irrefl _), mul_zero, sub_zero, one_mul, zero_add, ← EReal.coe_mul]
    refine ⟨by norm_num, -2000, rfl⟩
  · have h11 : (1 : EReal) - 1 = 0 := by
      rw [← EReal.coe_one, ← EReal.coe_sub, sub_self, EReal.coe_zero]
    rw [if_pos zero_lt_one, mul_one, h11, zero_mul, add_zero]
    exact ⟨rfl, -20 * d, (EReal.coe_mul _ _).symm⟩

section
variable (D K : Cert.Spec.SImg.Idx → EReal) (W : Cert.Spec.SBin.Idx → EReal)
variable (hD : ∀ i : Cert.Spec.SImg.Idx, ∃ r : ℝ, D i = ((r : ℝ) : EReal))
variable (hK : ∀ i : Cert.Spec.SImg.Idx, K i = 0 ∨ K i = 1)
include hD hK

/-- the selection equals the blend at every pixel -/
theorem negSel_eq_negBlend (b : Fin 64) (h : Fin 288) (w : Fin 640) :
    Cert.Spec.negSel D K b h w = Cert.Spec.negBlend D K b h w := by
  obtain ⟨d, hd⟩ := hD (ix3 b (Cert.Spec.row h) w)
  unfold Cert.Spec.negSel Cert.Spec.negBlend
  rw [hd, kNeg20_eq, kNeg2000_eq, k100_eq, k1_eq, k0_eq]
  exact (sel_eq_blend d _ (hK _)).1

/-- the selection is a real at every pixel -/
theorem negSel_real (b : Fin 64) (h : Fin 288) (w : Fin 640) :
    ∃ r : ℝ, Cert.Spec.negSel D K b h w = ((r : ℝ) : EReal) := by
  obtain ⟨d, hd⟩ := hD (ix3 b (Cert.Spec.row h) w)
  unfold Cert.Spec.negSel
  rw [hd, kNeg20_eq, kNeg2000_eq, k0_eq]
  exact (sel_eq_blend d _ (hK _)).2

/-! ### The column: three steps equal two passes -/

/-- the stepped column maximum and sum equal the two-pass column maximum and sum -/
theorem run3_eq (b : Fin 64) (w : Fin 640) :
    Cert.Spec.run3Max D K b w = Cert.Spec.colMax D K b w
      ∧ Cert.Spec.run3Sum D K b w = Cert.Spec.colSum D K b w := by
  obtain ⟨F, hF⟩ : ∃ F : Fin 288 → ℝ, ∀ h, Cert.Spec.negSel D K b h w = ((F h : ℝ) : EReal) :=
    ⟨fun h => Classical.choose (negSel_real D K hD hK b h w),
      fun h => Classical.choose_spec (negSel_real D K hD hK b h w)⟩
  obtain ⟨G, hG⟩ : ∃ G : Fin 288 → ℝ, ∀ h, K (ix3 b (Cert.Spec.row h) w) = ((G h : ℝ) : EReal) := by
    refine ⟨fun h => (K (ix3 b (Cert.Spec.row h) w)).toReal, fun h => ?_⟩
    show K (ix3 b (Cert.Spec.row h) w) = (((K (ix3 b (Cert.Spec.row h) w)).toReal : ℝ) : EReal)
    rcases hK (ix3 b (Cert.Spec.row h) w) with h0 | h1
    · rw [h0, EReal.toReal_zero, EReal.coe_zero]
    · rw [h1, EReal.toReal_one, EReal.coe_one]
  have hB : ∀ h, Cert.Spec.negBlend D K b h w = ((F h : ℝ) : EReal) := fun h =>
    (negSel_eq_negBlend D K hD hK b h w).symm.trans (hF h)
  have hbm : ∀ r, Cert.Spec.blockMax D K b r w
      = (Finset.univ : Finset (Fin 96)).fold max (⊥ : EReal)
          (fun j => ((Cert.ColumnLaw.blk F r j : ℝ) : EReal)) := by
    intro r
    unfold Cert.Spec.blockMax
    simp only [hF, kNegInf_eq]
    rfl
  have hbs : ∀ r μ, Cert.Spec.blockSum D K b r w μ
      = ∑ j : Fin 96, Ideal.exp (((Cert.ColumnLaw.blk F r j : ℝ) : EReal) - μ)
          * ((Cert.ColumnLaw.blk G r j : ℝ) : EReal) := by
    intro r μ
    unfold Cert.Spec.blockSum
    simp only [hF, hG]
    rfl
  have hcm : Cert.Spec.colMax D K b w
      = (Finset.univ : Finset (Fin 288)).fold max (⊥ : EReal) (fun h => ((F h : ℝ) : EReal)) := by
    unfold Cert.Spec.colMax
    simp only [hB, kNegInf_eq]
  have hcs : Cert.Spec.colSum D K b w
      = 0 + ∑ h : Fin 288, Ideal.exp (((F h : ℝ) : EReal)
          - (Finset.univ : Finset (Fin 288)).fold max (⊥ : EReal) (fun h => ((F h : ℝ) : EReal)))
          * ((G h : ℝ) : EReal) := by
    unfold Cert.Spec.colSum
    simp only [hcm, hB, hG, k0_eq]
  obtain ⟨lawM, lawL⟩ := Cert.ColumnLaw.online_eq_twopass Ideal.exp (fun _ => rfl) F G
  have e1 : Cert.Spec.run1Max D K b w = max ⊥ (Cert.Spec.blockMax D K b 0 w) := by
    unfold Cert.Spec.run1Max; rw [kNegInf_eq]
  constructor
  · rw [Cert.Spec.run3Max, Cert.Spec.run2Max, e1, hbm, hbm, hbm, hcm]
    exact lawM
  · rw [Cert.Spec.run3Sum, Cert.Spec.run2Sum, Cert.Spec.run1Sum, Cert.Spec.run3Max, Cert.Spec.run2Max, e1,
      hbs, hbs, hbs, hbm, hbm, hbm, hcs, kNegInf_eq, k0_eq]
    exact lawL

/-! ### The combine over the columns -/

/-- the bin maximum over the stepped column maxima equals the two-pass bin maximum -/
theorem binMax3_eq (b : Fin 64) (n : Fin 32) :
    Cert.Spec.binMax3 D K W b n = Cert.Spec.binMax D K W b n := by
  unfold Cert.Spec.binMax3 Cert.Spec.binMax
  simp only [(run3_eq D K hD hK b _).1]

/-- the bin sum over the stepped column quantities equals the two-pass bin sum -/
theorem binSum3_eq (b : Fin 64) (n : Fin 32) :
    Cert.Spec.binSum3 D K W b n = Cert.Spec.binSum D K W b n := by
  unfold Cert.Spec.binSum3 Cert.Spec.binSum
  rw [k0_eq, zero_add, binMax3_eq D K W hD hK]
  refine Finset.sum_congr rfl fun w _ => ?_
  rw [(run3_eq D K hD hK b w).1, (run3_eq D K hD hK b w).2,
    add_comm (Cert.Spec.colMax D K b w) (Cert.Spec.logW W n w)]

/-- the clearance in the three-step form equals the clearance in the two-pass form -/
theorem clearance3_eq (b : Fin 64) (n : Fin 32) :
    Cert.Spec.clearance3 D K W b n = Cert.Spec.clearance D K W b n := by
  unfold Cert.Spec.clearance3 Cert.Spec.clearance
  rw [k0_eq, zero_sub, binMax3_eq D K W hD hK, binSum3_eq D K W hD hK]

end

end Cert.Bridge

end
-- ==== Proof.HostSide.lean ====
/-
  The host operations around the region, as terms: the logarithm of the shifted weights that the region reads,
  and the selection that follows the region applied to the region's output array.
-/
import proofs.«102616_j69973607186476_2_alg».proof.Proof.Gen.KernelIdeal.Frame
import Idealize.ShloMosaic.Lib.StableHlo.Run
import Idealize.ShloMosaic.Lib.Pipeline.Value

set_option maxRecDepth 16384

noncomputable section

namespace Cert.KernelIdeal.HostSide

open Cert.KernelIdeal Cert.KernelIdeal.Gen
open Idealize.ShloMosaic Idealize.ShloMosaic.TcCoe

variable {F : FTy → Type} [FloatOps F]
variable (m : (ℓ : Loc nD τ sig) → Buf (Elt F) ℓ)

/-- the array the region reads as its third window is the logarithm of the weights shifted by the small constant -/
theorem logw_eq (c : Dev nD) :
    (V m c main_v2 : S32x640.Idx → F .f32)
      = Host.log (addf (m ((c : Thread nD τ).loc main_arg2))
          (broadcastInDim S32x640 ![] bcast_S_S32x640 (constant S_ .f32 0x2EDBE6FF#32))) := by
  show StableHlo.after hostOps0 (fun b => m (c, b)) (Proc.devRef .tc main_v2) = _
  after_results

/-- the operations that follow the region, composed: where the row sum of the weights times 288 is below the
threshold the result is 100, elsewhere it is the region's output -/
def tail (x2 : FVec F S32x640 .f32) (X : FVec F S64x32 .f32) : FVec F S64x32 .f32 :=
  select
    (broadcastInDim S64x32 ![0, 1] bcast_S1x32_S64x32_0_1
      (cmpf .olt
        (broadcastInDim S1x32 ![1] bcast_S32_S1x32_1
          (mulf (Host.reduceAdd x2 (constant S_ .f32 0x00000000#32) reducesTo_S32x640_S32_d1 h_S_)
            (broadcastInDim S32 ![] bcast_S_S32 (constant S_ .f32 0x43900000#32))))
        (broadcastInDim S1x32 ![] bcast_S_S1x32 (constant S_ .f32 0x358637BD#32))))
    (broadcastInDim S64x32 ![] bcast_S_S64x32 (id (constant S_ .f32 0x42C80000#32)))
    X

/-- what the result buffer holds after the operations that follow the region: their composition applied to the
weights as launched and to the region's output array -/
theorem result_eq (c : Dev nD) :
    Pipeline.afterTail₀ cfgs (dats m) 0 (V0 m) [hostOps1, hostOps1_1] c main_v10
      = tail (m ((c : Thread nD τ).loc main_arg2)) ((dats m 0 c).arrAt 3 cfg0.N) := by
  unfold Pipeline.afterTail₀
  simp only [hostOps1, hostOps1_1, List.flatten_cons, List.flatten_nil, List.append_nil, List.cons_append,
    List.nil_append]
  after_results
  have h2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have h3 : Pipeline.withArrays (cfgs 0).spec c (V0 m c) (fun w => (dats m 0 c).arrAt w (cfgs 0).N)
      (Proc.devRef .tc main_v3) = (dats m 0 c).arrAt 3 cfg0.N :=
    Pipeline.withArrays_arr spec0 launch0.win.arr_inj c _ _ 3
  refine Eq.trans ?_ (congrArg₂ tail h2 h3)
  rfl

end Cert.KernelIdeal.HostSide

end
-- ==== Proof.Pieces.lean ====
/-
  What each control case of the kernel body leaves behind, as pure functions of what the body loaded.

  The body keeps, per batch row and image column, a running maximum `m` and a running rescaled sum `l` of the
  row block's terms (an online log-sum-exp over the cropped rows, one block of 96 rows per grid step):
    * first row block of a batch block: `m` and `l` are first filled with −∞ and 0, then stepped once;
    * middle row block: stepped once from what the previous step left;
    * last row block: stepped once, and then the per-bin combine is computed from the new `m` and `l`
      and the log-weights, and stored into the output block.
  One step is `m' = max m (max over the block's rows of neg)` (the payload `k0_pay7`) and
  `l' = l · exp (m − m') + Σ over the block's rows of exp (neg − m') · mask` (the payload `k0_pay6`); the combine
  is the payload `k0_pay1`. Each lemma reads the stores the run found back as that payload of the loaded blocks.
-/
import proofs.«102616_j69973607186476_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- the zero offsets of a whole rank-2 buffer -/
theorem hz2 : (![0, 0] : Fin 2 → Nat) = fun _ => 0 := funext fun a => by fin_cases a <;> rfl
/-- the zero offsets of a whole rank-3 buffer -/
theorem hz3 : (![0, 0, 0] : Fin 3 → Nat) = fun _ => 0 := funext fun a => by fin_cases a <;> rfl

theorem sA0 (c : Dev nD) (i : grid0.Coords) (arg2 : Memref sig .tc .vmem S16x96x640 .f32) (harg2 : arg2.IsWhole) (arg3 : Memref sig .tc .vmem S16x96x640 .f32) (harg3 : arg3.IsWhole) (arg4 : Memref sig .tc .vmem S32x640 .f32) (harg4 : arg4.IsWhole) (arg5 : Memref sig .tc .vmem S16x32 .f32) (harg5 : arg5.IsWhole) (arg6 : Memref sig .tc .vmem S16x640 .f32) (harg6 : arg6.IsWhole) (arg7 : Memref sig .tc .vmem S16x640 .f32) (harg7 : arg7.IsWhole) (hc0 : cond0_0 i) (hc1 : ¬cond0_1 i)
    (x0 x1 : Vec F S16x96x640 .f32) (x2 : Vec F S32x640 .f32) :
    sout0_A_0 c i arg2 harg2 arg3 harg3 arg4 harg4 arg5 harg5 arg6 harg6 arg7 harg7 hc0 hc1 x0 x1 x2 = k0_pay7 x0 x1 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S16x640) hz2]
  simp only [View.readCov_unit_zero (S := S16x640) _ hz2]
  simp only [View.readAt_eq_ld, harg2.read_unread, harg3.read_unread, harg4.read_unread, harg6.read_unread, harg7.read_unread,
    View.ld_unit_zero (S := S16x96x640) hz3, View.ld_unit_zero (S := S16x640) hz2, View.ld_unit_zero (S := S32x640) hz2]

theorem sA1 (c : Dev nD) (i : grid0.Coords) (arg2 : Memref sig .tc .vmem S16x96x640 .f32) (harg2 : arg2.IsWhole) (arg3 : Memref sig .tc .vmem S16x96x640 .f32) (harg3 : arg3.IsWhole) (arg4 : Memref sig .tc .vmem S32x640 .f32) (harg4 : arg4.IsWhole) (arg5 : Memref sig .tc .vmem S16x32 .f32) (harg5 : arg5.IsWhole) (arg6 : Memref sig .tc .vmem S16x640 .f32) (harg6 : arg6.IsWhole) (arg7 : Memref sig .tc .vmem S16x640 .f32) (harg7 : arg7.IsWhole) (hc0 : cond0_0 i) (hc1 : ¬cond0_1 i)
    (x0 x1 : Vec F S16x96x640 .f32) (x2 : Vec F S32x640 .f32) :
    sout0_A_1 c i arg2 harg2 arg3 harg3 arg4 harg4 arg5 harg5 arg6 harg6 arg7 harg7 hc0 hc1 x0 x1 x2 = k0_pay6 x0 x1 (k0_pay2 (F := F)) (k0_pay2 (F := F)) (k0_pay3 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S16x640) hz2]
  simp only [View.readCov_unit_zero (S := S16x640) _ hz2]
  simp only [View.readAt_eq_ld, harg2.read_unread, harg3.read_unread, harg4.read_unread, harg6.read_unread, harg7.read_unread,
    View.ld_unit_zero (S := S16x96x640) hz3, View.ld_unit_zero (S := S16x640) hz2, View.ld_unit_zero (S := S32x640) hz2]

theorem sB0 (c : Dev nD) (i : grid0.Coords) (arg2 : Memref sig .tc .vmem S16x96x640 .f32) (harg2 : arg2.IsWhole) (arg3 : Memref sig .tc .vmem S16x96x640 .f32) (harg3 : arg3.IsWhole) (arg4 : Memref sig .tc .vmem S32x640 .f32) (harg4 : arg4.IsWhole) (arg5 : Memref sig .tc .vmem S16x32 .f32) (harg5 : arg5.IsWhole) (arg6 : Memref sig .tc .vmem S16x640 .f32) (harg6 : arg6.IsWhole) (arg7 : Memref sig .tc .vmem S16x640 .f32) (harg7 : arg7.IsWhole) (hc0 : ¬cond0_0 i) (hc1 : ¬cond0_1 i)
    (x0 x1 : Vec F S16x96x640 .f32) (x2 : Vec F S32x640 .f32) (xs0 xs1 : Vec F S16x640 .f32) :
    sout0_B_0 c i arg2 harg2 arg3 harg3 arg4 harg4 arg5 harg5 arg6 harg6 arg7 harg7 hc0 hc1 x0 x1 x2 xs0 xs1 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  rw [View.canon_unit_zero hz2]
  simp only [View.readAt_eq_ld, harg2.read_unread, harg3.read_unread, harg4.read_unread, harg6.read_unread, harg7.read_unread,
    View.ld_unit_zero (S := S16x96x640) hz3, View.ld_unit_zero (S := S16x640) hz2, View.ld_unit_zero (S := S32x640) hz2]

theorem sB1 (c : Dev nD) (i : grid0.Coords) (arg2 : Memref sig .tc .vmem S16x96x640 .f32) (harg2 : arg2.IsWhole) (arg3 : Memref sig .tc .vmem S16x96x640 .f32) (harg3 : arg3.IsWhole) (arg4 : Memref sig .tc .vmem S32x640 .f32) (harg4 : arg4.IsWhole) (arg5 : Memref sig .tc .vmem S16x32 .f32) (harg5 : arg5.IsWhole) (arg6 : Memref sig .tc .vmem S16x640 .f32) (harg6 : arg6.IsWhole) (arg7 : Memref sig .tc .vmem S16x640 .f32) (harg7 : arg7.IsWhole) (hc0 : ¬cond0_0 i) (hc1 : ¬cond0_1 i)
    (x0 x1 : Vec F S16x96x640 .f32) (x2 : Vec F S32x640 .f32) (xs0 xs1 : Vec F S16x640 .f32) :
    sout0_B_1 c i arg2 harg2 arg3 harg3 arg4 harg4 arg5 harg5 arg6 harg6 arg7 harg7 hc0 hc1 x0 x1 x2 xs0 xs1 = k0_pay6 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  rw [View.canon_unit_zero hz2]
  simp only [View.readAt_eq_ld, harg2.read_unread, harg3.read_unread, harg4.read_unread, harg6.read_unread, harg7.read_unread,
    View.ld_unit_zero (S := S16x96x640) hz3, View.ld_unit_zero (S := S16x640) hz2, View.ld_unit_zero (S := S32x640) hz2]

theorem sC0 (c : Dev nD) (i : grid0.Coords) (arg2 : Memref sig .tc .vmem S16x96x640 .f32) (harg2 : arg2.IsWhole) (arg3 : Memref sig .tc .vmem S16x96x640 .f32) (harg3 : arg3.IsWhole) (arg4 : Memref sig .tc .vmem S32x640 .f32) (harg4 : arg4.IsWhole) (arg5 : Memref sig .tc .vmem S16x32 .f32) (harg5 : arg5.IsWhole) (arg6 : Memref sig .tc .vmem S16x640 .f32) (harg6 : arg6.IsWhole) (arg7 : Memref sig .tc .vmem S16x640 .f32) (harg7 : arg7.IsWhole) (hc0 : ¬cond0_0 i) (hc1 : cond0_1 i)
    (x0 x1 : Vec F S16x96x640 .f32) (x2 : Vec F S32x640 .f32) (xs0 xs1 : Vec F S16x640 .f32) :
    sout0_C_0 c i arg2 harg2 arg3 harg3 arg4 harg4 arg5 harg5 arg6 harg6 arg7 harg7 hc0 hc1 x0 x1 x2 xs0 xs1 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.ld_unit_zero (S := S16x96x640) hz3, View.ld_unit_zero (S := S16x640) hz2, View.ld_unit_zero (S := S32x640) hz2]

theorem sC1 (c : Dev nD) (i : grid0.Coords) (arg2 : Memref sig .tc .vmem S16x96x640 .f32) (harg2 : arg2.IsWhole) (arg3 : Memref sig .tc .vmem S16x96x640 .f32) (harg3 : arg3.IsWhole) (arg4 : Memref sig .tc .vmem S32x640 .f32) (harg4 : arg4.IsWhole) (arg5 : Memref sig .tc .vmem S16x32 .f32) (harg5 : arg5.IsWhole) (arg6 : Memref sig .tc .vmem S16x640 .f32) (harg6 : arg6.IsWhole) (arg7 : Memref sig .tc .vmem S16x640 .f32) (harg7 : arg7.IsWhole) (hc0 : ¬cond0_0 i) (hc1 : cond0_1 i)
    (x0 x1 : Vec F S16x96x640 .f32) (x2 : Vec F S32x640 .f32) (xs0 xs1 : Vec F S16x640 .f32) :
    sout0_C_1 c i arg2 harg2 arg3 harg3 arg4 harg4 arg5 harg5 arg6 harg6 arg7 harg7 hc0 hc1 x0 x1 x2 xs0 xs1 = k0_pay6 x0 x1 xs0 xs0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.ld_unit_zero (S := S16x96x640) hz3, View.ld_unit_zero (S := S16x640) hz2, View.ld_unit_zero (S := S32x640) hz2]

theorem oC3 (c : Dev nD) (i : grid0.Coords) (arg2 : Memref sig .tc .vmem S16x96x640 .f32) (harg2 : arg2.IsWhole) (arg3 : Memref sig .tc .vmem S16x96x640 .f32) (harg3 : arg3.IsWhole) (arg4 : Memref sig .tc .vmem S32x640 .f32) (harg4 : arg4.IsWhole) (arg5 : Memref sig .tc .vmem S16x32 .f32) (harg5 : arg5.IsWhole) (arg6 : Memref sig .tc .vmem S16x640 .f32) (harg6 : arg6.IsWhole) (arg7 : Memref sig .tc .vmem S16x640 .f32) (harg7 : arg7.IsWhole) (hc0 : ¬cond0_0 i) (hc1 : cond0_1 i)
    (x0 x1 : Vec F S16x96x640 .f32) (x2 : Vec F S32x640 .f32) (xs0 xs1 : Vec F S16x640 .f32) :
    out0_C_3 c i arg2 harg2 arg3 harg3 arg4 harg4 arg5 harg5 arg6 harg6 arg7 harg7 hc0 hc1 x0 x1 x2 xs0 xs1 = k0_pay1 x2 (k0_pay7 x0 x1 xs0) (k0_pay6 x0 x1 xs0 xs0 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readCov_unit_zero (S := S16x640) _ hz2]
  simp only [View.readAt_eq_ld, harg2.read_unread, harg3.read_unread, harg4.read_unread, harg6.read_unread, harg7.read_unread,
    View.ld_unit_zero (S := S16x96x640) hz3, View.ld_unit_zero (S := S16x640) hz2, View.ld_unit_zero (S := S32x640) hz2]

end Cert.KernelIdeal.Pieces
end
-- ==== Proof.Accum.lean ====
/-
  The output block at the last row block of a batch block, as three steps of the online column reduction.

  The grid runs the three row blocks of one batch block one after the other (points 3b, 3b+1, 3b+2), and the two
  scratch buffers carry the running maximum and the running rescaled sum from one point to the next. So after the
  point `t = 3b+2` the output block is the per-bin combine of the log-weights with the maximum and the sum obtained by
  stepping three times from (−∞, 0): over the row block of point `t−2`, then `t−1`, then `t`.
-/
import proofs.«102616_j69973607186476_2_alg».proof.Proof.Gen.KernelIdeal.Frame
import proofs.«102616_j69973607186476_2_alg».proof.Proof.Pieces
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- the grid point `d` steps before `t` -/
abbrev back (t : Fin cfg0.N) (d : ℕ) : Fin cfg0.N := ⟨t.val - d, Nat.lt_of_le_of_lt (Nat.sub_le _ _) t.isLt⟩

/-- After the first row block of a batch block the running maximum is one step from −∞. -/
theorem first_max (c : Dev nD) (s : Fin cfg0.N) (h : s.val % 3 = 0) :
    (outsAt0 m c s.val s.isLt).2.1 = k0_pay7 (iblk m c 0 s) (iblk m c 1 s) (k0_pay2 (F := F)) := by
  have h1 : ¬s.val % 3 = 2 := by omega
  rw [outsAt0_A m c s h h1]
  dsimp only
  exact sA0 c (grid0.coords s) (ms0_0 s) (hs0_0 s) (ms0_1 s) (hs0_1 s) (ms0_2 s) (hs0_2 s) (ms0_3 s) (hs0_3 s) scM0_0 (Memref.isWhole_whole _) scM0_1 (Memref.isWhole_whole _) ((hcond0_0 s).mpr h) (fun hh => h1 ((hcond0_1 s).mp hh)) (iblk m c 0 s) (iblk m c 1 s) (iblk m c 2 s)

/-- After the first row block the running sum is one step from 0. -/
theorem first_sum (c : Dev nD) (s : Fin cfg0.N) (h : s.val % 3 = 0) :
    (outsAt0 m c s.val s.isLt).2.2
      = k0_pay6 (iblk m c 0 s) (iblk m c 1 s) (k0_pay2 (F := F)) (k0_pay2 (F := F)) (k0_pay3 (F := F)) := by
  have h1 : ¬s.val % 3 = 2 := by omega
  rw [outsAt0_A m c s h h1]
  dsimp only
  exact sA1 c (grid0.coords s) (ms0_0 s) (hs0_0 s) (ms0_1 s) (hs0_1 s) (ms0_2 s) (hs0_2 s) (ms0_3 s) (hs0_3 s) scM0_0 (Memref.isWhole_whole _) scM0_1 (Memref.isWhole_whole _) ((hcond0_0 s).mpr h) (fun hh => h1 ((hcond0_1 s).mp hh)) (iblk m c 0 s) (iblk m c 1 s) (iblk m c 2 s)

/-- After a later row block the running maximum is one step from what the point before left. -/
theorem next_max (c : Dev nD) (s : Fin cfg0.N) (h : ¬s.val % 3 = 0) :
    (outsAt0 m c s.val s.isLt).2.1 = k0_pay7 (iblk m c 0 s) (iblk m c 1 s) (outsAt0 m c (s.val - 1) (Nat.lt_of_le_of_lt (Nat.sub_le _ _) s.isLt)).2.1 := by
  by_cases h1 : s.val % 3 = 2
  · rw [outsAt0_C m c s h h1]
    dsimp only
    exact sC0 c (grid0.coords s) (ms0_0 s) (hs0_0 s) (ms0_1 s) (hs0_1 s) (ms0_2 s) (hs0_2 s) (ms0_3 s) (hs0_3 s) scM0_0 (Memref.isWhole_whole _) scM0_1 (Memref.isWhole_whole _) (fun hh => h ((hcond0_0 s).mp hh)) ((hcond0_1 s).mpr h1) (iblk m c 0 s) (iblk m c 1 s) (iblk m c 2 s) (outsAt0 m c (s.val - 1) (Nat.lt_of_le_of_lt (Nat.sub_le _ _) s.isLt)).2.1 (outsAt0 m c (s.val - 1) (Nat.lt_of_le_of_lt (Nat.sub_le _ _) s.isLt)).2.2
  · rw [outsAt0_B m c s h h1]
    dsimp only
    exact sB0 c (grid0.coords s) (ms0_0 s) (hs0_0 s) (ms0_1 s) (hs0_1 s) (ms0_2 s) (hs0_2 s) (ms0_3 s) (hs0_3 s) scM0_0 (Memref.isWhole_whole _) scM0_1 (Memref.isWhole_whole _) (fun hh => h ((hcond0_0 s).mp hh)) (fun hh => h1 ((hcond0_1 s).mp hh)) (iblk m c 0 s) (iblk m c 1 s) (iblk m c 2 s) (outsAt0 m c (s.val - 1) (Nat.lt_of_le_of_lt (Nat.sub_le _ _) s.isLt)).2.1 (outsAt0 m c (s.val - 1) (Nat.lt_of_le_of_lt (Nat.sub_le _ _) s.isLt)).2.2

/-- After a later row block the running sum is one step from what the point before left. -/
theorem next_sum (c : Dev nD) (s : Fin cfg0.N) (h : ¬s.val % 3 = 0) :
    (outsAt0 m c s.val s.isLt).2.2
      = k0_pay6 (iblk m c 0 s) (iblk m c 1 s) (outsAt0 m c (s.val - 1) (Nat.lt_of_le_of_lt (Nat.sub_le _ _) s.isLt)).2.1 (outsAt0 m c (s.val - 1) (Nat.lt_of_le_of_lt (Nat.sub_le _ _) s.isLt)).2.1 (outsAt0 m c (s.val - 1) (Nat.lt_of_le_of_lt (Nat.sub_le _ _) s.isLt)).2.2 := by
  by_cases h1 : s.val % 3 = 2
  · rw [outsAt0_C m c s h h1]
    dsimp only
    exact sC1 c (grid0.coords s) (ms0_0 s) (hs0_0 s) (ms0_1 s) (hs0_1 s) (ms0_2 s) (hs0_2 s) (ms0_3 s) (hs0_3 s) scM0_0 (Memref.isWhole_whole _) scM0_1 (Memref.isWhole_whole _) (fun hh => h ((hcond0_0 s).mp hh)) ((hcond0_1 s).mpr h1) (iblk m c 0 s) (iblk m c 1 s) (iblk m c 2 s) (outsAt0 m c (s.val - 1) (Nat.lt_of_le_of_lt (Nat.sub_le _ _) s.isLt)).2.1 (outsAt0 m c (s.val - 1) (Nat.lt_of_le_of_lt (Nat.sub_le _ _) s.isLt)).2.2
  · rw [outsAt0_B m c s h h1]
    dsimp only
    exact sB1 c (grid0.coords s) (ms0_0 s) (hs0_0 s) (ms0_1 s) (hs0_1 s) (ms0_2 s) (hs0_2 s) (ms0_3 s) (hs0_3 s) scM0_0 (Memref.isWhole_whole _) scM0_1 (Memref.isWhole_whole _) (fun hh => h ((hcond0_0 s).mp hh)) (fun hh => h1 ((hcond0_1 s).mp hh)) (iblk m c 0 s) (iblk m c 1 s) (iblk m c 2 s) (outsAt0 m c (s.val - 1) (Nat.lt_of_le_of_lt (Nat.sub_le _ _) s.isLt)).2.1 (outsAt0 m c (s.val - 1) (Nat.lt_of_le_of_lt (Nat.sub_le _ _) s.isLt)).2.2

/-- At the last row block the output block is the combine of the log-weights with the stepped scratch. -/
theorem out_last (c : Dev nD) (s : Fin cfg0.N) (h1 : s.val % 3 = 2) :
    (outsAt0 m c s.val s.isLt).1
      = k0_pay1 (iblk m c 2 s) (k0_pay7 (iblk m c 0 s) (iblk m c 1 s) (outsAt0 m c (s.val - 1) (Nat.lt_of_le_of_lt (Nat.sub_le _ _) s.isLt)).2.1)
          (k0_pay6 (iblk m c 0 s) (iblk m c 1 s) (outsAt0 m c (s.val - 1) (Nat.lt_of_le_of_lt (Nat.sub_le _ _) s.isLt)).2.1 (outsAt0 m c (s.val - 1) (Nat.lt_of_le_of_lt (Nat.sub_le _ _) s.isLt)).2.1 (outsAt0 m c (s.val - 1) (Nat.lt_of_le_of_lt (Nat.sub_le _ _) s.isLt)).2.2) := by
  have h : ¬s.val % 3 = 0 := by omega
  rw [outsAt0_C m c s h h1]
  dsimp only
  exact oC3 c (grid0.coords s) (ms0_0 s) (hs0_0 s) (ms0_1 s) (hs0_1 s) (ms0_2 s) (hs0_2 s) (ms0_3 s) (hs0_3 s) scM0_0 (Memref.isWhole_whole _) scM0_1 (Memref.isWhole_whole _) (fun hh => h ((hcond0_0 s).mp hh)) ((hcond0_1 s).mpr h1) (iblk m c 0 s) (iblk m c 1 s) (iblk m c 2 s) (outsAt0 m c (s.val - 1) (Nat.lt_of_le_of_lt (Nat.sub_le _ _) s.isLt)).2.1 (outsAt0 m c (s.val - 1) (Nat.lt_of_le_of_lt (Nat.sub_le _ _) s.isLt)).2.2

/-- the running maximum after the first row block of the batch block ending at `t` -/
def max1 (c : Dev nD) (t : Fin cfg0.N) : Vec F S16x640 .f32 :=
  k0_pay7 (iblk m c 0 (back t 2)) (iblk m c 1 (back t 2)) (k0_pay2 (F := F))
/-- the running sum after the first row block -/
def sum1 (c : Dev nD) (t : Fin cfg0.N) : Vec F S16x640 .f32 :=
  k0_pay6 (iblk m c 0 (back t 2)) (iblk m c 1 (back t 2)) (k0_pay2 (F := F)) (k0_pay2 (F := F)) (k0_pay3 (F := F))
/-- the running maximum after the second row block -/
def max2 (c : Dev nD) (t : Fin cfg0.N) : Vec F S16x640 .f32 :=
  k0_pay7 (iblk m c 0 (back t 1)) (iblk m c 1 (back t 1)) (max1 m c t)
/-- the running sum after the second row block -/
def sum2 (c : Dev nD) (t : Fin cfg0.N) : Vec F S16x640 .f32 :=
  k0_pay6 (iblk m c 0 (back t 1)) (iblk m c 1 (back t 1)) (max1 m c t) (max1 m c t) (sum1 m c t)
/-- the running maximum after the third row block -/
def max3 (c : Dev nD) (t : Fin cfg0.N) : Vec F S16x640 .f32 :=
  k0_pay7 (iblk m c 0 t) (iblk m c 1 t) (max2 m c t)
/-- the running sum after the third row block -/
def sum3 (c : Dev nD) (t : Fin cfg0.N) : Vec F S16x640 .f32 :=
  k0_pay6 (iblk m c 0 t) (iblk m c 1 t) (max2 m c t) (max2 m c t) (sum2 m c t)

/-- The output block after the point `t = 3b+2`: the combine over three steps from (−∞, 0). -/
theorem out_three (c : Dev nD) (t : Fin cfg0.N) (h2 : t.val % 3 = 2) :
    (outsAt0 m c t.val t.isLt).1 = k0_pay1 (iblk m c 2 t) (max3 m c t) (sum3 m c t) := by
  have hN : cfg0.N = 12 := N_0
  have hb1 : ¬(back t 1).val % 3 = 0 := by show ¬(t.val - 1) % 3 = 0; omega
  have hb2 : (back t 2).val % 3 = 0 := by show (t.val - 2) % 3 = 0; omega
  have hbb : (back t 1).val - 1 = (back t 2).val := by show t.val - 1 - 1 = t.val - 2; omega
  -- what the first point left
  have a1 : (outsAt0 m c (back t 2).val (back t 2).isLt).2.1 = max1 m c t := first_max m c (back t 2) hb2
  have a2 : (outsAt0 m c (back t 2).val (back t 2).isLt).2.2 = sum1 m c t := first_sum m c (back t 2) hb2
  -- what the second point left
  have b1 := next_max m c (back t 1) hb1
  have b2 := next_sum m c (back t 1) hb1
  simp only [hbb] at b1 b2
  rw [a1] at b1
  rw [a1, a2] at b2
  -- the third point
  have e := out_last m c t h2
  rw [e]
  show k0_pay1 (iblk m c 2 t) (k0_pay7 (iblk m c 0 t) (iblk m c 1 t) (outsAt0 m c (back t 1).val (back t 1).isLt).2.1)
      (k0_pay6 (iblk m c 0 t) (iblk m c 1 t) (outsAt0 m c (back t 1).val (back t 1).isLt).2.1
        (outsAt0 m c (back t 1).val (back t 1).isLt).2.1 (outsAt0 m c (back t 1).val (back t 1).isLt).2.2) = _
  rw [b1, b2]
  rfl

end Cert.KernelIdeal.Accum
end
-- ==== Proof.LibLayout3.lean ====
/-
  Keep-dimension layout operations of rank-3 arrays read at an index.

  A reduction that keeps its axis is spelled as a cast to a shape with a unit axis followed by a broadcast along that
  axis. Read at coordinates these are the identity on the remaining coordinates:
    * an [a, b] array cast to [a, 1, b] reads, at (p, u, w), the operand at (p, w); cast to [a, b, 1] it reads, at
      (p, n, u), the operand at (p, n);
    * an [a, 1, c] array broadcast to [a, b, c] reads, at (p, j, w), the operand at (p, 0, w); a [1, b, c] array reads
      the operand at (0, j, w); an [a, b, 1] array reads the operand at (p, j, 0).
-/
import Idealize.ShloMosaic.Lib.Pipeline.Value
import Idealize.ShloMosaic.Lib.ValueIdx

noncomputable section

namespace Cert.LibLayout3

open Idealize.ShloMosaic Idealize.ShloMosaic.ValueIdx

variable {α : Type}

/-- An `[a, b]` array cast to `[a, 1, b]` reads, at `(p, u, w)`, the operand at `(p, w)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (w : Fin b) :
    shapeCast ⟨3, ![a, 1, b]⟩ x h (ix3 p u w) = x (ix2 p w) :=
  shapeCast_apply x h _ _ (by
    have hu : u.val = 0 := by omega
    rw [Shape.rowMajor_val_three, Shape.rowMajor_val_two]
    show p.val * b + w.val = (p.val * 1 + u.val) * b + w.val
    rw [hu, Nat.mul_one, Nat.add_zero])

/-- An `[a, b]` array cast to `[a, b, 1]` reads, at `(p, n, u)`, the operand at `(p, n)`. -/
theorem shapeCast_ab_ab1_apply {a b : ℕ} (x : (⟨2, ![a, b]⟩ : Shape).Idx → α)
    (h : (⟨2, ![a, b]⟩ : Shape).ShapeCasts ⟨3, ![a, b, 1]⟩) (p : Fin a) (n : Fin b) (u : Fin 1) :
    shapeCast ⟨3, ![a, b, 1]⟩ x h (ix3 p n u) = x (ix2 p n) :=
  shapeCast_apply x h _ _ (by
    have hu : u.val = 0 := by omega
    rw [Shape.rowMajor_val_three, Shape.rowMajor_val_two]
    show p.val * b + n.val = (p.val * b + n.val) * 1 + u.val
    rw [hu, Nat.mul_one, Nat.add_zero])

/-- An `[a, 1, c]` array broadcast to `[a, b, c]` reads, at `(p, j, w)`, the operand at `(p, 0, w)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (j : Fin b) (w : Fin c) :
    broadcastTo ⟨3, ![a, b, c]⟩ v h (ix3 p j w) = v (ix3 p (0 : Fin 1) w) := by
  refine broadcastTo_apply v h (ix3 p j w) (ix3 p (0 : Fin 1) w) fun ax => ?_
  match ax with
  | ⟨0, _⟩ =>
    show p.val = if a = 1 then 0 else p.val
    split
    · have := p.isLt; omega
    · rfl
  | ⟨1, _⟩ => rfl
  | ⟨2, _⟩ =>
    show w.val = if c = 1 then 0 else w.val
    split
    · have := w.isLt; omega
    · rfl

/-- A `[1, b, c]` array broadcast to `[a, b, c]` reads, at `(p, j, w)`, the operand at `(0, j, w)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (w : Fin c) :
    broadcastTo ⟨3, ![a, b, c]⟩ v h (ix3 p j w) = v (ix3 (0 : Fin 1) j w) := by
  refine broadcastTo_apply v h (ix3 p j w) (ix3 (0 : Fin 1) j w) fun ax => ?_
  match ax with
  | ⟨0, _⟩ => rfl
  | ⟨1, _⟩ =>
    show j.val = if b = 1 then 0 else j.val
    split
    · have := j.isLt; omega
    · rfl
  | ⟨2, _⟩ =>
    show w.val = if c = 1 then 0 else w.val
    split
    · have := w.isLt; omega
    · rfl

/-- An `[a, b, 1]` array broadcast to `[a, b, c]` reads, at `(p, j, w)`, the operand at `(p, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (w : Fin c) :
    broadcastTo ⟨3, ![a, b, c]⟩ v h (ix3 p j w) = v (ix3 p j (0 : Fin 1)) := by
  refine broadcastTo_apply v h (ix3 p j w) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLayout3

end
-- ==== Proof.BodyAt.lean ====
/-
  The kernel body's values read at one element, over the extended reals.

  With `x0` the depth block and `x1` the mask block (16 batch rows × 96 image rows × 640 columns), at batch row `p`,
  block row `j`, column `w`:
    * the scaled negative depth is `if 0 < x1 then −20 · x0 else −2000`;
    * the new running maximum is `max` of the old one with the maximum of that over the block's 96 rows;
    * the new running sum is `old · exp (old max − new max) + Σ over the rows of exp (neg − new max) · x1`;
  and the combine, at batch row `p` and bin `n`, of log-weights `lw`, a column maximum `mx` and a column sum `sm`:
  with `M = max over the columns of (mx + lw)` and `S = Σ over the columns of exp ((mx + lw) − M) · sm` it is
  `(0 − (M + log (S + ε))) / 20`.
-/
import proofs.«102616_j69973607186476_2_alg».proof.Proof.Gen.KernelIdeal.Skeleton
import proofs.«102616_j69973607186476_2_alg».proof.Proof.Spec
import proofs.«102616_j69973607186476_2_alg».proof.Proof.LibLayout3
import proofs.«102616_j69973607186476_2_alg».proof.Proof.PreFacts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators

namespace Cert.KernelIdeal.BodyAt

open Cert.KernelIdeal Cert.KernelIdeal.Gen Idealize.ShloMosaic.ValueIdx Cert.LibLayout3

/-- a "greater than" comparison is the bit 1 exactly when the order holds -/
theorem cmp_ogt_eq_one (a b : EReal) : Ideal.cmp .ogt a b = 1#1 ↔ b < a := by
  unfold Ideal.cmp
  exact (Cert.PreFacts.ofBool_eq_one _).trans decide_eq_true_iff

/-- the reduced index (p, w) of a [16, 96, 640] block with row `j` put back is (p, j, w) -/
theorem lift_rows (p : Fin 16) (w : Fin 640) (j : Fin 96) :
    (reduces_S16x96x640_S16x640).lift (ix2 p w) j = ix3 p j w := by
  funext a; apply Fin.ext
  match a with
  | ⟨0, _⟩ => rfl
  | ⟨1, _⟩ => rfl
  | ⟨2, _⟩ => rfl

/-- the reduced index (p, n) of a [16, 32, 640] array with column `w` put back is (p, n, w) -/
theorem lift_cols (p : Fin 16) (n : Fin 32) (w : Fin 640) :
    (reduces_S16x32x640_S16x32).lift (ix2 p n) w = ix3 p n w := by
  funext a; apply Fin.ext
  match a with
  | ⟨0, _⟩ => rfl
  | ⟨1, _⟩ => rfl
  | ⟨2, _⟩ => rfl

/-- a column vector kept as a unit row axis and repeated over the 96 rows reads, at any row, its own entry -/
theorem bcast_rows (v : Vec Ideal S16x640 .f32) (p : Fin 16) (j : Fin 96) (w : Fin 640) :
    broadcastTo S16x96x640 (shapeCast S16x1x640 v shapeCasts_S16x640_S16x1x640) broadcasts_S16x1x640_S16x96x640 (ix3 p j w)
      = v (ix2 p w) :=
  (broadcastTo_a1c_abc_apply _ broadcasts_S16x1x640_S16x96x640 p j w).trans
    (shapeCast_ab_a1b_apply v shapeCasts_S16x640_S16x1x640 p (0 : Fin 1) w)

/-- the same over the 32 bins -/
theorem bcast_bins (v : Vec Ideal S16x640 .f32) (p : Fin 16) (n : Fin 32) (w : Fin 640) :
    broadcastTo S16x32x640 (shapeCast S16x1x640 v shapeCasts_S16x640_S16x1x640) broadcasts_S16x1x640_S16x32x640 (ix3 p n w)
      = v (ix2 p w) :=
  (broadcastTo_a1c_abc_apply _ broadcasts_S16x1x640_S16x32x640 p n w).trans
    (shapeCast_ab_a1b_apply v shapeCasts_S16x640_S16x1x640 p (0 : Fin 1) w)

/-- the log-weights kept as a unit batch axis and repeated over the 16 batch rows read their own entry -/
theorem bcast_batch (v : Vec Ideal S32x640 .f32) (p : Fin 16) (n : Fin 32) (w : Fin 640) :
    broadcastTo S16x32x640 (shapeCast S1x32x640 v shapeCasts_S32x640_S1x32x640) broadcasts_S1x32x640_S16x32x640 (ix3 p n w)
      = v (ix2 n w) :=
  (broadcastTo_1bc_abc_apply _ broadcasts_S1x32x640_S16x32x640 p n w).trans
    (shapeCast_ab_1ab_apply v shapeCasts_S32x640_S1x32x640 (0 : Fin 1) n w)

/-- a per-bin value kept as a unit column axis and repeated over the 640 columns reads its own entry -/
theorem bcast_cols (v : Vec Ideal S16x32 .f32) (p : Fin 16) (n : Fin 32) (w : Fin 640) :
    broadcastTo S16x32x640 (shapeCast S16x32x1 v shapeCasts_S16x32_S16x32x1) broadcasts_S16x32x1_S16x32x640 (ix3 p n w)
      = v (ix2 p n) :=
  (broadcastTo_ab1_abc_apply _ broadcasts_S16x32x1_S16x32x640 p n w).trans
    (shapeCast_ab_ab1_apply v shapeCasts_S16x32_S16x32x1 p n (0 : Fin 1))

variable (x0 x1 : Vec Ideal S16x96x640 .f32)

/-- the scaled negative depth at one pixel -/
theorem pay4_at (p : Fin 16) (j : Fin 96) (w : Fin 640) :
    (k0_pay4 x0 x1 (ix3 p j w) : EReal)
      = if Cert.Spec.k0 < (x1 (ix3 p j w) : EReal) then Cert.Spec.kNeg20 * (x0 (ix3 p j w) : EReal) else Cert.Spec.kNeg2000 := by
  show Scalar.select (Ideal.cmp .ogt (x1 (ix3 p j w)) Cert.Spec.k0) (Cert.Spec.kNeg20 * (x0 (ix3 p j w) : EReal)) Cert.Spec.kNeg2000 = _
  unfold Scalar.select
  have hiff : Ideal.cmp .ogt (x1 (ix3 p j w)) Cert.Spec.k0 = 1 ↔ Cert.Spec.k0 < (x1 (ix3 p j w) : EReal) := cmp_ogt_eq_one _ _
  by_cases hlt : Cert.Spec.k0 < (x1 (ix3 p j w) : EReal)
  · rw [if_pos (hiff.mpr hlt), if_pos hlt]
  · rw [if_neg (fun h => hlt (hiff.mp h)), if_neg hlt]

/-- the initial running maximum is −∞ everywhere -/
theorem pay2_at (p : Fin 16) (w : Fin 640) : (k0_pay2 (F := Ideal) (ix2 p w) : EReal) = Cert.Spec.kNegInf := by
  unfold k0_pay2
  exact congrFun (shapeCast_self _ shapeCasts_S16x640_S16x640) (ix2 p w)

/-- the initial running sum is 0 everywhere -/
theorem pay3_at (p : Fin 16) (w : Fin 640) : (k0_pay3 (F := Ideal) (ix2 p w) : EReal) = Cert.Spec.k0 := by
  unfold k0_pay3
  exact congrFun (shapeCast_self _ shapeCasts_S16x640_S16x640) (ix2 p w)

/-- the new running maximum at one column -/
theorem pay5_at (mp : Vec Ideal S16x640 .f32) (p : Fin 16) (w : Fin 640) :
    (k0_pay5 x0 x1 mp (ix2 p w) : EReal)
      = max (mp (ix2 p w) : EReal)
          ((Finset.univ : Finset (Fin 96)).fold max Cert.Spec.kNegInf (fun j => (k0_pay4 x0 x1 (ix3 p j w) : EReal))) := by
  unfold k0_pay5
  refine congrArg (max (mp (ix2 p w) : EReal)) ?_
  refine (Ideal.multiReduction_maximumf_single (k0_pay4 x0 x1) 0xFF800000#32 reduces_S16x96x640_S16x640 (.inl rfl) rfl (ix2 p w)).trans ?_
  exact congrArg (fun f : Fin 96 → EReal => Finset.fold max Cert.Spec.kNegInf f (Finset.univ : Finset (Fin 96)))
    (funext fun j => congrArg (k0_pay4 x0 x1) (lift_rows p w j))

/-- the stored running maximum is the new running maximum -/
theorem pay7_eq (mp : Vec Ideal S16x640 .f32) : k0_pay7 x0 x1 mp = k0_pay5 x0 x1 mp := by
  unfold k0_pay7
  exact shapeCast_self _ shapeCasts_S16x640_S16x640

/-- the new running sum at one column -/
theorem pay6_at (v12 v14 v23 : Vec Ideal S16x640 .f32) (p : Fin 16) (w : Fin 640) :
    (k0_pay6 x0 x1 v12 v14 v23 (ix2 p w) : EReal)
      = (v23 (ix2 p w) : EReal) * Ideal.exp ((v14 (ix2 p w) : EReal) - (k0_pay5 x0 x1 v12 (ix2 p w) : EReal))
        + ∑ j : Fin 96, Ideal.exp ((k0_pay4 x0 x1 (ix3 p j w) : EReal) - (k0_pay5 x0 x1 v12 (ix2 p w) : EReal)) * (x1 (ix3 p j w) : EReal) := by
  unfold k0_pay6
  refine (congrFun (shapeCast_self _ shapeCasts_S16x640_S16x640) (ix2 p w)).trans ?_
  refine congrArg (fun z : EReal => (v23 (ix2 p w) : EReal) * Ideal.exp ((v14 (ix2 p w) : EReal) - (k0_pay5 x0 x1 v12 (ix2 p w) : EReal)) + z) ?_
  refine (Ideal.multiReduction_add_single _ 0x00000000#32 reduces_S16x96x640_S16x640 (.inl rfl) rfl (ix2 p w)).trans ?_
  refine Finset.sum_congr rfl fun j _ => ?_
  have hl := lift_rows p w j
  show Ideal.exp ((k0_pay4 x0 x1 ((reduces_S16x96x640_S16x640).lift (ix2 p w) j) : EReal)
      - broadcastTo S16x96x640 (shapeCast S16x1x640 (k0_pay5 x0 x1 v12) shapeCasts_S16x640_S16x1x640) broadcasts_S16x1x640_S16x96x640 ((reduces_S16x96x640_S16x640).lift (ix2 p w) j))
      * (x1 ((reduces_S16x96x640_S16x640).lift (ix2 p w) j) : EReal) = _
  rw [hl]
  exact congrArg (fun z : EReal => Ideal.exp ((k0_pay4 x0 x1 (ix3 p j w) : EReal) - z) * (x1 (ix3 p j w) : EReal))
    (bcast_rows (k0_pay5 x0 x1 v12) p j w)

/-! ## The combine -/

section Combine

variable (lw : Vec Ideal S32x640 .f32) (mx sm : Vec Ideal S16x640 .f32)

/-- column maximum plus log-weight, per (batch row, bin, column) -/
def shiftedV : FVec Ideal S16x32x640 .f32 :=
  addf (broadcastTo S16x32x640 (shapeCast S16x1x640 mx shapeCasts_S16x640_S16x1x640) broadcasts_S16x1x640_S16x32x640)
    (broadcastTo S16x32x640 (shapeCast S1x32x640 (shapeCast S32x640 lw shapeCasts_S32x640_S32x640) shapeCasts_S32x640_S1x32x640) broadcasts_S1x32x640_S16x32x640)

/-- its maximum over the columns, per (batch row, bin) -/
def maxV : FVec Ideal S16x32 .f32 :=
  multiReduction .maximumf [2] S16x32 (shiftedV lw mx) 0xFF800000#32 reduces_S16x32x640_S16x32 (.inl rfl) rfl

/-- the shifted exponential times the column sum, per (batch row, bin, column) -/
def prodV : FVec Ideal S16x32x640 .f32 :=
  mulf (exp (subf (shiftedV lw mx)
      (broadcastTo S16x32x640 (shapeCast S16x32x1 (maxV lw mx) shapeCasts_S16x32_S16x32x1) broadcasts_S16x32x1_S16x32x640)))
    (broadcastTo S16x32x640 (shapeCast S16x1x640 sm shapeCasts_S16x640_S16x1x640) broadcasts_S16x1x640_S16x32x640)

/-- its sum over the columns, per (batch row, bin) -/
def sumV : FVec Ideal S16x32 .f32 :=
  multiReduction .add [2] S16x32 (prodV lw mx sm) 0x00000000#32 reduces_S16x32x640_S16x32 (.inl rfl) rfl

/-- the bin maximum the combine takes, at batch row `p` and bin `n` -/
def combMax (p : Fin 16) (n : Fin 32) : EReal :=
  (Finset.univ : Finset (Fin 640)).fold max Cert.Spec.kNegInf (fun w => (mx (ix2 p w) : EReal) + (lw (ix2 n w) : EReal))

/-- the bin sum the combine takes -/
def combSum (p : Fin 16) (n : Fin 32) : EReal :=
  ∑ w : Fin 640, Ideal.exp (((mx (ix2 p w) : EReal) + (lw (ix2 n w) : EReal)) - combMax lw mx p n) * (sm (ix2 p w) : EReal)

theorem shiftedV_at (p : Fin 16) (n : Fin 32) (w : Fin 640) :
    (shiftedV lw mx (ix3 p n w) : EReal) = (mx (ix2 p w) : EReal) + (lw (ix2 n w) : EReal) := by
  unfold shiftedV
  show (broadcastTo S16x32x640 (shapeCast S16x1x640 mx shapeCasts_S16x640_S16x1x640) broadcasts_S16x1x640_S16x32x640 (ix3 p n w) : EReal)
      + (broadcastTo S16x32x640 (shapeCast S1x32x640 (shapeCast S32x640 lw shapeCasts_S32x640_S32x640) shapeCasts_S32x640_S1x32x640) broadcasts_S1x32x640_S16x32x640 (ix3 p n w) : EReal) = _
  rw [bcast_bins mx p n w, shapeCast_self lw shapeCasts_S32x640_S32x640, bcast_batch lw p n w]

theorem maxV_at (p : Fin 16) (n : Fin 32) : (maxV lw mx (ix2 p n) : EReal) = combMax lw mx p n := by
  unfold maxV
  refine (Ideal.multiReduction_maximumf_single (shiftedV lw mx) 0xFF800000#32 reduces_S16x32x640_S16x32 (.inl rfl) rfl (ix2 p n)).trans ?_
  exact congrArg (fun f : Fin 640 → EReal => Finset.fold max Cert.Spec.kNegInf f (Finset.univ : Finset (Fin 640)))
    (funext fun w => (congrArg (shiftedV lw mx) (lift_cols p n w)).trans (shiftedV_at lw mx p n w))

theorem prodV_at (p : Fin 16) (n : Fin 32) (w : Fin 640) :
    (prodV lw mx sm (ix3 p n w) : EReal)
      = Ideal.exp (((mx (ix2 p w) : EReal) + (lw (ix2 n w) : EReal)) - combMax lw mx p n) * (sm (ix2 p w) : EReal) := by
  unfold prodV
  show Ideal.exp ((shiftedV lw mx (ix3 p n w) : EReal)
        - (broadcastTo S16x32x640 (shapeCast S16x32x1 (maxV lw mx) shapeCasts_S16x32_S16x32x1) broadcasts_S16x32x1_S16x32x640 (ix3 p n w) : EReal))
      * (broadcastTo S16x32x640 (shapeCast S16x1x640 sm shapeCasts_S16x640_S16x1x640) broadcasts_S16x1x640_S16x32x640 (ix3 p n w) : EReal) = _
  rw [shiftedV_at lw mx p n w, bcast_cols (maxV lw mx) p n w, maxV_at lw mx p n, bcast_bins sm p n w]

theorem sumV_at (p : Fin 16) (n : Fin 32) : (sumV lw mx sm (ix2 p n) : EReal) = combSum lw mx sm p n := by
  unfold sumV
  refine (Ideal.multiReduction_add_single (prodV lw mx sm) 0x00000000#32 reduces_S16x32x640_S16x32 (.inl rfl) rfl (ix2 p n)).trans ?_
  exact Finset.sum_congr rfl fun w _ => (congrArg (prodV lw mx sm) (lift_cols p n w)).trans (prodV_at lw mx sm p n w)

/-- the combine at one (batch row, bin) -/
theorem pay1_at (p : Fin 16) (n : Fin 32) :
    (k0_pay1 lw mx sm (ix2 p n) : EReal)
      = Ideal.div (Cert.Spec.k0 - (combMax lw mx p n + Ideal.log (combSum lw mx sm p n + Cert.Spec.kEps))) Cert.Spec.k20 := by
  have key : (k0_pay1 lw mx sm (ix2 p n) : EReal)
      = Ideal.div (Cert.Spec.k0 - ((maxV lw mx (ix2 p n) : EReal) + Ideal.log ((sumV lw mx sm (ix2 p n) : EReal) + Cert.Spec.kEps))) Cert.Spec.k20 := rfl
  rw [key, maxV_at, sumV_at]

end Combine

end Cert.KernelIdeal.BodyAt
end
-- ==== Proof.Blocks.lean ====
/-
  The windows' blocks read at coordinates, and the kernel's three steps as the specification's.

  Grid point `s = 3·bb + r` is batch block `bb` and row block `r`. The depth and mask windows fetch the block of
  batch rows `16·bb … 16·bb+15` and image rows `96·(r+2) … 96·(r+2)+95` — cropped rows `96·r … 96·r+95`, since the crop
  starts at image row 192 = 2·96 —, all 640 columns; the log-weight window is the whole [32, 640] array at every
  point. So at batch row `p`, block row `j`, column `w` the blocks hold the image at `(16·bb+p, 192+96·r+j, w)`, and one
  step of the body over the block of point `s` is the specification's step over row block `r` of batch `16·bb+p`.
-/
import proofs.«102616_j69973607186476_2_alg».proof.Proof.Gen.KernelIdeal.Frame
import proofs.«102616_j69973607186476_2_alg».proof.Proof.Accum
import proofs.«102616_j69973607186476_2_alg».proof.Proof.BodyAt
import proofs.«102616_j69973607186476_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

open scoped BigOperators

namespace Cert.KernelIdeal.Blocks

open Cert.KernelIdeal Cert.KernelIdeal.Gen Cert.KernelIdeal.BodyAt Idealize.ShloMosaic.ValueIdx

variable (m : (ℓ : Loc nD τ sig) → Buf (Elt Ideal) ℓ)

/-- the block index of each window at each grid point -/
theorem idx_facts : ∀ t : Fin cfg0.N,
      win0_0.index t (0 : Fin 3) = t.val / 3 ∧ win0_0.index t (1 : Fin 3) = t.val % 3 + 2 ∧ win0_0.index t (2 : Fin 3) = 0
    ∧ win0_1.index t (0 : Fin 3) = t.val / 3 ∧ win0_1.index t (1 : Fin 3) = t.val % 3 + 2 ∧ win0_1.index t (2 : Fin 3) = 0
    ∧ win0_2.index t (0 : Fin 2) = 0 ∧ win0_2.index t (1 : Fin 2) = 0
    ∧ win0_3.index t (0 : Fin 2) = t.val / 3 ∧ win0_3.index t (1 : Fin 2) = 0 :=
  (by decide +kernel : ∀ t : Fin grid0.N, _)

/-- the depth image as the region finds it -/
abbrev D (c : Dev nD) : Cert.Spec.SImg.Idx → EReal := V m c main_arg0
/-- the mask as the region finds it -/
abbrev K (c : Dev nD) : Cert.Spec.SImg.Idx → EReal := V m c main_arg1
/-- the log-weights as the region finds them -/
abbrev LW (c : Dev nD) : Cert.Spec.SBin.Idx → EReal := V m c main_v2

/-- batch row `p` of batch block `bb` -/
def brow16 (bb : Fin 4) (p : Fin 16) : Fin 64 := ⟨16 * bb.val + p.val, by omega⟩

/-- the image index the windows read at block coordinates (p, j, w) of the point (bb, r) -/
theorem img_idx (bb : Fin 4) (r : Fin 3) (p : Fin 16) (j : Fin 96) (w : Fin 640) :
    (ix3 (⟨16 * bb.val + p.val, by omega⟩ : Fin 64) (⟨96 * (r.val + 2) + j.val, by omega⟩ : Fin 480) w : Cert.Spec.SImg.Idx)
      = ix3 (brow16 bb p) (Cert.Spec.row (Cert.Spec.brow r j)) w := by
  funext a
  match a with
  | ⟨0, _⟩ => rfl
  | ⟨1, _⟩ => exact Fin.ext (by show 96 * (r.val + 2) + j.val = 192 + (96 * r.val + j.val); omega)
  | ⟨2, _⟩ => rfl

/-- The depth window's block at the point (bb, r), read at (p, j, w). -/
theorem depth_blk (c : Dev nD) (s : Fin cfg0.N) (bb : Fin 4) (r : Fin 3) (hs : s.val = 3 * bb.val + r.val)
    (p : Fin 16) (j : Fin 96) (w : Fin 640) :
    (iblk m c 0 s (ix3 p j w) : EReal) = D m c (ix3 (brow16 bb p) (Cert.Spec.row (Cert.Spec.brow r j)) w) := by
  obtain ⟨e0, e1, e2, -⟩ := idx_facts s
  rw [← img_idx bb r p j w]
  show V m c main_arg0 (((cfg0.win 0).blk s).view.emb (ix3 p j w)) = V m c main_arg0 _
  refine congrArg (V m c main_arg0) (funext fun a => Fin.ext ?_)
  match a with
  | ⟨0, _⟩ => show win0_0.index s (0 : Fin 3) * 16 + 1 * p.val = 16 * bb.val + p.val; omega
  | ⟨1, _⟩ => show win0_0.index s (1 : Fin 3) * 96 + 1 * j.val = 96 * (r.val + 2) + j.val; omega
  | ⟨2, _⟩ => show win0_0.index s (2 : Fin 3) * 640 + 1 * w.val = w.val; omega

/-- The mask window's block at the point (bb, r), read at (p, j, w). -/
theorem mask_blk (c : Dev nD) (s : Fin cfg0.N) (bb : Fin 4) (r : Fin 3) (hs : s.val = 3 * bb.val + r.val)
    (p : Fin 16) (j : Fin 96) (w : Fin 640) :
    (iblk m c 1 s (ix3 p j w) : EReal) = K m c (ix3 (brow16 bb p) (Cert.Spec.row (Cert.Spec.brow r j)) w) := by
  obtain ⟨-, -, -, e0, e1, e2, -⟩ := idx_facts s
  rw [← img_idx bb r p j w]
  show V m c main_arg1 (((cfg0.win 1).blk s).view.emb (ix3 p j w)) = V m c main_arg1 _
  refine congrArg (V m c main_arg1) (funext fun a => Fin.ext ?_)
  match a with
  | ⟨0, _⟩ => show win0_1.index s (0 : Fin 3) * 16 + 1 * p.val = 16 * bb.val + p.val; omega
  | ⟨1, _⟩ => show win0_1.index s (1 : Fin 3) * 96 + 1 * j.val = 96 * (r.val + 2) + j.val; omega
  | ⟨2, _⟩ => show win0_1.index s (2 : Fin 3) * 640 + 1 * w.val = w.val; omega

/-- The log-weight window's block is the whole array at every point. -/
theorem logw_blk (c : Dev nD) (s : Fin cfg0.N) (n : Fin 32) (w : Fin 640) :
    (iblk m c 2 s (ix2 n w) : EReal) = LW m c (ix2 n w) := by
  obtain ⟨-, -, -, -, -, -, e0, e1, -⟩ := idx_facts s
  show V m c main_v2 (((cfg0.win 2).blk s).view.emb (ix2 n w)) = V m c main_v2 _
  refine congrArg (V m c main_v2) (funext fun a => Fin.ext ?_)
  match a with
  | ⟨0, _⟩ => show win0_2.index s (0 : Fin 2) * 32 + 1 * n.val = n.val; omega
  | ⟨1, _⟩ => show win0_2.index s (1 : Fin 2) * 640 + 1 * w.val = w.val; omega

/-- The scaled negative depth the body forms over the block of the point (bb, r) is the specification's. -/
theorem neg_blk (c : Dev nD) (s : Fin cfg0.N) (bb : Fin 4) (r : Fin 3) (hs : s.val = 3 * bb.val + r.val)
    (p : Fin 16) (j : Fin 96) (w : Fin 640) :
    (k0_pay4 (iblk m c 0 s) (iblk m c 1 s) (ix3 p j w) : EReal)
      = Cert.Spec.negSel (D m c) (K m c) (brow16 bb p) (Cert.Spec.brow r j) w := by
  rw [pay4_at (iblk m c 0 s) (iblk m c 1 s) p j w, depth_blk m c s bb r hs p j w, mask_blk m c s bb r hs p j w]
  rfl

/-- One step of the running maximum over the block of the point (bb, r). -/
theorem stepMax_at (c : Dev nD) (s : Fin cfg0.N) (bb : Fin 4) (r : Fin 3) (hs : s.val = 3 * bb.val + r.val)
    (mp : Vec Ideal S16x640 .f32) (p : Fin 16) (w : Fin 640) :
    (k0_pay7 (iblk m c 0 s) (iblk m c 1 s) mp (ix2 p w) : EReal)
      = max (mp (ix2 p w) : EReal) (Cert.Spec.blockMax (D m c) (K m c) (brow16 bb p) r w) := by
  rw [pay7_eq (iblk m c 0 s) (iblk m c 1 s) mp, pay5_at (iblk m c 0 s) (iblk m c 1 s) mp p w]
  unfold Cert.Spec.blockMax
  exact congrArg (fun f : Fin 96 → EReal => max (mp (ix2 p w) : EReal) (Finset.fold max Cert.Spec.kNegInf f (Finset.univ : Finset (Fin 96))))
    (funext fun j => neg_blk m c s bb r hs p j w)

/-- One step of the running sum over the block of the point (bb, r). -/
theorem stepSum_at (c : Dev nD) (s : Fin cfg0.N) (bb : Fin 4) (r : Fin 3) (hs : s.val = 3 * bb.val + r.val)
    (mp lp : Vec Ideal S16x640 .f32) (p : Fin 16) (w : Fin 640) :
    (k0_pay6 (iblk m c 0 s) (iblk m c 1 s) mp mp lp (ix2 p w) : EReal)
      = (lp (ix2 p w) : EReal) * Ideal.exp ((mp (ix2 p w) : EReal)
            - max (mp (ix2 p w) : EReal) (Cert.Spec.blockMax (D m c) (K m c) (brow16 bb p) r w))
        + Cert.Spec.blockSum (D m c) (K m c) (brow16 bb p) r w
            (max (mp (ix2 p w) : EReal) (Cert.Spec.blockMax (D m c) (K m c) (brow16 bb p) r w)) := by
  have hM := stepMax_at m c s bb r hs mp p w
  rw [pay7_eq (iblk m c 0 s) (iblk m c 1 s) mp] at hM
  rw [pay6_at (iblk m c 0 s) (iblk m c 1 s) mp mp lp p w, hM]
  unfold Cert.Spec.blockSum
  refine congrArg (fun z : EReal => (lp (ix2 p w) : EReal) * Ideal.exp ((mp (ix2 p w) : EReal)
            - max (mp (ix2 p w) : EReal) (Cert.Spec.blockMax (D m c) (K m c) (brow16 bb p) r w)) + z) ?_
  refine Finset.sum_congr rfl fun j _ => ?_
  rw [neg_blk m c s bb r hs p j w, mask_blk m c s bb r hs p j w]

end Cert.KernelIdeal.Blocks
end
-- ==== Proof.KernelValue.lean ====
/-
  The kernel's output array after the region: the clearance in the three-step form, index by index.

  For the batch block `bb` the grid's last row-block point `t = 3·bb + 2` writes back the output block of batch rows
  `16·bb … 16·bb+15` and all 32 bins; the other points write nothing back. The stepped maximum and sum at that point
  are the specification's `run3Max` / `run3Sum` of batch `16·bb+p`, the log-weight block is the whole log-weight array,
  and the combine of the three is `clearance3`. The four written blocks tile the [64, 32] array.
-/
import proofs.«102616_j69973607186476_2_alg».proof.Proof.Gen.KernelIdeal.Frame
import proofs.«102616_j69973607186476_2_alg».proof.Proof.Accum
import proofs.«102616_j69973607186476_2_alg».proof.Proof.BodyAt
import proofs.«102616_j69973607186476_2_alg».proof.Proof.Blocks
import proofs.«102616_j69973607186476_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

open scoped BigOperators

namespace Cert.KernelIdeal.KernelValue

open Cert.KernelIdeal Cert.KernelIdeal.Gen Cert.KernelIdeal.BodyAt Cert.KernelIdeal.Blocks Idealize.ShloMosaic.ValueIdx

variable (m : (ℓ : Loc nD τ sig) → Buf (Elt Ideal) ℓ)

section Steps

variable (c : Dev nD) (t : Fin cfg0.N) (bb : Fin 4) (ht : t.val = 3 * bb.val + 2) (p : Fin 16) (w : Fin 640)
include ht

theorem max1_at : (Accum.max1 m c t (ix2 p w) : EReal) = Cert.Spec.run1Max (D m c) (K m c) (brow16 bb p) w := by
  unfold Accum.max1
  rw [stepMax_at m c (Accum.back t 2) bb 0 (by show t.val - 2 = 3 * bb.val + 0; omega) (k0_pay2 (F := Ideal)) p w, pay2_at p w]
  rfl

theorem sum1_at : (Accum.sum1 m c t (ix2 p w) : EReal) = Cert.Spec.run1Sum (D m c) (K m c) (brow16 bb p) w := by
  unfold Accum.sum1
  rw [stepSum_at m c (Accum.back t 2) bb 0 (by show t.val - 2 = 3 * bb.val + 0; omega) (k0_pay2 (F := Ideal)) (k0_pay3 (F := Ideal)) p w,
    pay2_at p w, pay3_at p w]
  rfl

theorem max2_at : (Accum.max2 m c t (ix2 p w) : EReal) = Cert.Spec.run2Max (D m c) (K m c) (brow16 bb p) w := by
  unfold Accum.max2
  rw [stepMax_at m c (Accum.back t 1) bb 1 (by show t.val - 1 = 3 * bb.val + 1; omega) (Accum.max1 m c t) p w, max1_at m c t bb ht p w]
  rfl

theorem sum2_at : (Accum.sum2 m c t (ix2 p w) : EReal) = Cert.Spec.run2Sum (D m c) (K m c) (brow16 bb p) w := by
  unfold Accum.sum2
  rw [stepSum_at m c (Accum.back t 1) bb 1 (by show t.val - 1 = 3 * bb.val + 1; omega) (Accum.max1 m c t) (Accum.sum1 m c t) p w,
    max1_at m c t bb ht p w, sum1_at m c t bb ht p w]
  rfl

theorem max3_at : (Accum.max3 m c t (ix2 p w) : EReal) = Cert.Spec.run3Max (D m c) (K m c) (brow16 bb p) w := by
  unfold Accum.max3
  rw [stepMax_at m c t bb 2 (by show t.val = 3 * bb.val + 2; omega) (Accum.max2 m c t) p w, max2_at m c t bb ht p w]
  rfl

theorem sum3_at : (Accum.sum3 m c t (ix2 p w) : EReal) = Cert.Spec.run3Sum (D m c) (K m c) (brow16 bb p) w := by
  unfold Accum.sum3
  rw [stepSum_at m c t bb 2 (by show t.val = 3 * bb.val + 2; omega) (Accum.max2 m c t) (Accum.sum2 m c t) p w,
    max2_at m c t bb ht p w, sum2_at m c t bb ht p w]
  rfl

end Steps

/-- The output block after the point `t = 3·bb + 2`, at batch row `p` and bin `n`, given the log-weights the region finds
    are the logs of the weights `W`. -/
theorem out_at (c : Dev nD) (W : Cert.Spec.SBin.Idx → EReal)
    (hLW : ∀ (n : Fin 32) (w : Fin 640), LW m c (ix2 n w) = Cert.Spec.logW W n w)
    (t : Fin cfg0.N) (bb : Fin 4) (ht : t.val = 3 * bb.val + 2) (p : Fin 16) (n : Fin 32) :
    (k0_pay1 (iblk m c 2 t) (Accum.max3 m c t) (Accum.sum3 m c t) (ix2 p n) : EReal)
      = Cert.Spec.clearance3 (D m c) (K m c) W (brow16 bb p) n := by
  have hmax : combMax (iblk m c 2 t) (Accum.max3 m c t) p n = Cert.Spec.binMax3 (D m c) (K m c) W (brow16 bb p) n := by
    unfold combMax Cert.Spec.binMax3
    exact congrArg (fun f : Fin 640 → EReal => Finset.fold max Cert.Spec.kNegInf f (Finset.univ : Finset (Fin 640)))
      (funext fun w => by rw [max3_at m c t bb ht p w, logw_blk m c t n w, hLW n w])
  have hsum : combSum (iblk m c 2 t) (Accum.max3 m c t) (Accum.sum3 m c t) p n
      = Cert.Spec.binSum3 (D m c) (K m c) W (brow16 bb p) n := by
    unfold combSum Cert.Spec.binSum3
    rw [hmax]
    exact Finset.sum_congr rfl fun w _ => by
      rw [max3_at m c t bb ht p w, sum3_at m c t bb ht p w, logw_blk m c t n w, hLW n w]
  rw [pay1_at (iblk m c 2 t) (Accum.max3 m c t) (Accum.sum3 m c t) p n, hmax, hsum]
  rfl

/-- the array the output window ends holding -/
def G (c : Dev nD) (W : Cert.Spec.SBin.Idx → EReal) : S64x32.Idx → EReal :=
  fun i => Cert.Spec.clearance3 (D m c) (K m c) W (i 0) (i 1)

/-- What a writing-back point writes back is its block of `G`. -/
theorem flushed_eq (c : Dev nD) (W : Cert.Spec.SBin.Idx → EReal)
    (hLW : ∀ (n : Fin 32) (w : Fin 640), LW m c (ix2 n w) = Cert.Spec.logW W n w)
    (t : Fin cfg0.N) (hf : (cfg0.win 3).flush t = true) :
    (dats m 0 c).flushed 3 t = ((cfg0.win 3).blk t).view.read (Elt Ideal) (G m c W) := by
  have hN : cfg0.N = 12 := N_0
  have h2 : t.val % 3 = 2 := (flush0_3 t).mp hf
  have hlt : t.val < 12 := lt_of_lt_of_eq t.isLt hN
  obtain ⟨-, -, -, -, -, -, -, -, e0, e1⟩ := idx_facts t
  show (cfg0.win 3).cut (grid0.coords t) ((dats m 0 c).after 3 t) = _
  rw [after0_3, Accum.out_three m c t h2]
  funext y
  obtain ⟨p, n, rfl⟩ : ∃ (p : Fin 16) (n : Fin 32), y = ix2 p n := ⟨y 0, y 1, eq_ix2 y⟩
  have hbb : t.val / 3 < 4 := by omega
  show (k0_pay1 (iblk m c 2 t) (Accum.max3 m c t) (Accum.sum3 m c t) (ix2 p n) : EReal)
      = G m c W (((cfg0.win 3).blk t).view.emb (ix2 p n))
  rw [out_at m c W hLW t ⟨t.val / 3, hbb⟩ (by show t.val = 3 * (t.val / 3) + 2; omega) p n]
  unfold G
  have hi0 : (((cfg0.win 3).blk t).view.emb (ix2 p n)) 0 = brow16 ⟨t.val / 3, hbb⟩ p :=
    Fin.ext (by show win0_3.index t (0 : Fin 2) * 16 + 1 * p.val = 16 * (t.val / 3) + p.val; omega)
  have hi1 : (((cfg0.win 3).blk t).view.emb (ix2 p n)) 1 = n :=
    Fin.ext (by show win0_3.index t (1 : Fin 2) * 32 + 1 * n.val = n.val; omega)
  rw [hi0, hi1]

/-- An index of the array is in point `t`'s block iff each coordinate is in the block's range on its axis. -/
theorem mem_blk (t : Fin cfg0.N) (i : S64x32.Idx) :
    i ∈ ((cfg0.win 3).blk t).view.set ↔ ∀ a : Fin 2, win0_3.index t a * S16x32.size a ≤ (i a).val ∧ (i a).val < win0_3.index t a * S16x32.size a + S16x32.size a := by
  show i ∈ ((View.whole main_v3).slice (win0_3.rect t)).set ↔ _
  rw [View.set_slice_whole, Rect.mem_set_unit]
  exact Iff.rfl

/-- every batch block's last point -/
theorem last_pt (q : Fin 4) : ∃ t : Fin cfg0.N, t.val = 3 * q.val + 2 :=
  ⟨⟨3 * q.val + 2, by rw [show cfg0.N = 12 from N_0]; omega⟩, rfl⟩

/-- The output array after the region. -/
theorem final (c : Dev nD) (W : Cert.Spec.SBin.Idx → EReal)
    (hLW : ∀ (n : Fin 32) (w : Fin 640), LW m c (ix2 n w) = Cert.Spec.logW W n w) :
    (dats m 0 c).arrAt 3 cfg0.N = G m c W :=
  (dats m 0 c).arrAt_eq_of_cover 3 (G m c W) (fun t hf => flushed_eq m c W hLW t hf) fun i => by
    have hi0 : (i 0).val < 64 := (i 0).isLt
    have hi1 : (i 1).val < 32 := (i 1).isLt
    obtain ⟨t, ht⟩ := last_pt ⟨(i 0).val / 16, by omega⟩
    have ht' : t.val = 3 * ((i 0).val / 16) + 2 := ht
    obtain ⟨-, -, -, -, -, -, -, -, e0, e1⟩ := idx_facts t
    refine ⟨t, (flush0_3 t).mpr (by omega), ?_⟩
    rw [mem_blk]
    intro a
    match a with
    | ⟨0, _⟩ => show win0_3.index t (0 : Fin 2) * 16 ≤ (i 0).val ∧ (i 0).val < win0_3.index t (0 : Fin 2) * 16 + 16; omega
    | ⟨1, _⟩ => show win0_3.index t (1 : Fin 2) * 32 ≤ (i 1).val ∧ (i 1).val < win0_3.index t (1 : Fin 2) * 32 + 32; omega

end Cert.KernelIdeal.KernelValue
end
-- ==== Proof.KernelRun.lean ====
/-
  The idealized kernel's run, read: every fair execution ends with the result array at the zero-weight guard applied to
  the clearance (in the three-step form) of the argument arrays, and the arguments unchanged.

  Before the region the host computes the log-weights `log (W + ε)`; the region leaves the clearance array; after it
  the host replaces the bins whose total weight is below the threshold by 100 (the guard `tail`).
-/
import proofs.«102616_j69973607186476_2_alg».proof.Proof.Gen.KernelIdeal.Frame
import proofs.«102616_j69973607186476_2_alg».proof.Proof.KernelValue
import proofs.«102616_j69973607186476_2_alg».proof.Proof.HostSide
import proofs.«102616_j69973607186476_2_alg».proof.Proof.Blocks
import proofs.«102616_j69973607186476_2_alg».proof.Proof.Spec
import Idealize.ShloMosaic.Lib.Pipeline.Value
import Idealize.ShloMosaic.Lib.ValueIdx
import Idealize.ShloMosaic.Lib.IdealHost

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Blocks Idealize.ShloMosaic.ValueIdx

variable (m : (ℓ : Loc nD τ sig) → Buf (Elt Ideal) ℓ) (ρ : Dev nD → PrngReg)

/-- the bin weights as launched -/
abbrev Wt (c : Dev nD) : Cert.Spec.SBin.Idx → EReal := m ((c : Thread nD τ).loc main_arg2)

/-- The log-weight array the region finds is the log of the weights plus ε, entry by entry. -/
theorem logw_at (c : Dev nD) (n : Fin 32) (w : Fin 640) : LW m c (ix2 n w) = Cert.Spec.logW (Wt m c) n w := by
  refine (congrFun (Cert.KernelIdeal.HostSide.logw_eq (F := Ideal) m c) (ix2 n w)).trans ?_
  show Ideal.log (Wt m c (ix2 n w)
      + (broadcastInDim S32x640 ![] bcast_S_S32x640 (constant (F := Ideal) S_ .f32 0x2EDBE6FF#32) : FVec Ideal S32x640 .f32) (ix2 n w)) = _
  rw [broadcastInDim_scalar_apply]
  rfl

/-- The run of the idealized kernel with its result named. -/
theorem run : θ_run defs (onTc (τ := τ) (main (F := Ideal))) ⟨m, fun _ => 0, ρ⟩ fun r => ∀ c : Dev nD,
      r.2.mem ((c.tc : Thread nD τ).loc main_v10)
          = Cert.KernelIdeal.HostSide.tail (F := Ideal) (m ((c : Thread nD τ).loc main_arg2)) (Cert.KernelIdeal.KernelValue.G m c (Wt m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v10 (Pipeline.mem_restRefs_of main_v10 (by decide) (by decide))).trans
        (Cert.KernelIdeal.HostSide.result_eq (F := Ideal) m c)).trans
        (congrArg (Cert.KernelIdeal.HostSide.tail (F := Ideal) (m ((c : Thread nD τ).loc main_arg2)))
          (Cert.KernelIdeal.KernelValue.final m c (Wt m c) (logw_at m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

end Cert.KernelIdeal.KernelRun
end
-- ==== Proof.RefAt.lean ====
/-
  The plain array program is the two-pass specification, index by index, over the extended reals.

  Each stage of the program is read at coordinates: the blended depth at a pixel of the crop, the column maximum (a
  fold of max from −∞ over the 288 cropped rows), the column sum of masked shifted exponentials, the log weights,
  the bin maximum (a fold of max from −∞ over the 640 columns), the bin sum, and the clearance. Every elementwise
  stage is read through the operands at the same index; a broadcast reads its operand at the index with the
  broadcast axis dropped; a slice reads row 192 + h; a sum reduction is the initial value plus the sum over the
  dropped axis; a max reduction is the fold over the dropped axis, whose coordinate put back into the reduced index
  gives the operand's index. Last, the result: 100 where a bin's total weight times 288 is below 1e-6, the
  clearance elsewhere.
-/
import proofs.«102616_j69973607186476_2_alg».proof.Proof.Gen.ReferenceIdeal.Read
import proofs.«102616_j69973607186476_2_alg».proof.Proof.Spec
import Idealize.ShloMosaic.Lib.ValueIdx
import Idealize.ShloMosaic.Lib.Pipeline.Value
import Idealize.ShloMosaic.PureOps.Ideal.Laws

noncomputable section

open scoped BigOperators

namespace Cert.RefAt

open Idealize.ShloMosaic Idealize.ShloMosaic.ValueIdx
open Cert.ReferenceIdeal Cert.ReferenceIdeal.Read

variable (x0 x1 : FVec Ideal S64x480x640 .f32) (x2 : FVec Ideal S32x640 .f32)

/-! ## Index equations: the composed index functions at coordinates -/

/-- The cropped index (b, h, w) reads the image at (b, 192 + h, w). -/
theorem idx_v0 (b : Fin 64) (h : Fin 288) (w : Fin 640) : idx_main_v0 (ix3 b h w) = ix3 b (Cert.Spec.row h) w :=
  funext fun a => Fin.ext (by match a with | ⟨0, _⟩ => rfl | ⟨1, _⟩ => rfl | ⟨2, _⟩ => rfl)

theorem idx_v1 (b : Fin 64) (h : Fin 288) (w : Fin 640) : idx_main_v1 (ix3 b h w) = ix3 b (Cert.Spec.row h) w :=
  funext fun a => Fin.ext (by match a with | ⟨0, _⟩ => rfl | ⟨1, _⟩ => rfl | ⟨2, _⟩ => rfl)

/-- The column maximum broadcast back over the rows reads (b, w). -/
theorem idx_v14_v15 (b : Fin 64) (h : Fin 288) (w : Fin 640) : idx_main_v14 (idx_main_v15 (ix3 b h w)) = ix2 b w :=
  funext fun a => Fin.ext (by match a with | ⟨0, _⟩ => rfl | ⟨1, _⟩ => rfl)

/-- Row k of column (b, w). -/
theorem idx_v19 (b : Fin 64) (w : Fin 640) (k : Fin 288) : idx_main_v19 (ix2 b w) k = ix3 b k w :=
  funext fun a => Fin.ext (by match a with | ⟨0, _⟩ => rfl | ⟨1, _⟩ => rfl | ⟨2, _⟩ => rfl)

/-- The column maximum broadcast over the bins reads (b, w). -/
theorem idx_v20_v22 (b : Fin 64) (n : Fin 32) (w : Fin 640) : idx_main_v20 (idx_main_v22 (ix3 b n w)) = ix2 b w :=
  funext fun a => Fin.ext (by match a with | ⟨0, _⟩ => rfl | ⟨1, _⟩ => rfl)

/-- The log weights broadcast over the batches read (n, w). -/
theorem idx_v21_v23 (b : Fin 64) (n : Fin 32) (w : Fin 640) : idx_main_v21 (idx_main_v23 (ix3 b n w)) = ix2 n w :=
  funext fun a => Fin.ext (by match a with | ⟨0, _⟩ => rfl | ⟨1, _⟩ => rfl)

theorem idx_v26_v28 (b : Fin 64) (n : Fin 32) (w : Fin 640) : idx_main_v26 (idx_main_v28 (ix3 b n w)) = ix2 n w :=
  funext fun a => Fin.ext (by match a with | ⟨0, _⟩ => rfl | ⟨1, _⟩ => rfl)

theorem idx_v27_v29 (b : Fin 64) (n : Fin 32) (w : Fin 640) : idx_main_v27 (idx_main_v29 (ix3 b n w)) = ix2 b w :=
  funext fun a => Fin.ext (by match a with | ⟨0, _⟩ => rfl | ⟨1, _⟩ => rfl)

/-- The bin maximum broadcast back over the columns reads (b, n). -/
theorem idx_v31_v32 (b : Fin 64) (n : Fin 32) (w : Fin 640) : idx_main_v31 (idx_main_v32 (ix3 b n w)) = ix2 b n :=
  funext fun a => Fin.ext (by match a with | ⟨0, _⟩ => rfl | ⟨1, _⟩ => rfl)

/-- The column sum broadcast over the bins reads (b, w). -/
theorem idx_v35_v36 (b : Fin 64) (n : Fin 32) (w : Fin 640) : idx_main_v35 (idx_main_v36 (ix3 b n w)) = ix2 b w :=
  funext fun a => Fin.ext (by match a with | ⟨0, _⟩ => rfl | ⟨1, _⟩ => rfl)

/-- Column k of bin (b, n). -/
theorem idx_v38 (b : Fin 64) (n : Fin 32) (k : Fin 640) : idx_main_v38 (ix2 b n) k = ix3 b n k :=
  funext fun a => Fin.ext (by match a with | ⟨0, _⟩ => rfl | ⟨1, _⟩ => rfl | ⟨2, _⟩ => rfl)

/-- The reduced index (b, w) with row k put back is (b, k, w). -/
theorem lift_rows (h : S64x288x640.Reduces [1] S64x640) (b : Fin 64) (w : Fin 640) (k : Fin 288) :
    h.lift (ix2 b w) k = ix3 b k w := by
  funext c; apply Fin.ext
  fin_cases c <;> rfl

/-- The reduced index (b, n) with column k put back is (b, n, k). -/
theorem lift_cols (h : S64x32x640.Reduces [2] S64x32) (b : Fin 64) (n : Fin 32) (k : Fin 640) :
    h.lift (ix2 b n) k = ix3 b n k := by
  funext c; apply Fin.ext
  fin_cases c <;> rfl

/-- Dropping the row axis of the crop leaves (batch, column). -/
theorem reduces_rows : S64x288x640.Reduces [1] S64x640 := by decide

/-- Dropping the column axis leaves (batch, bin). -/
theorem reduces_cols : S64x32x640.Reduces [2] S64x32 := by decide

/-- The guard bit broadcast over the batches reads (0, n). -/
theorem idx_call0_v1 (b : Fin 64) (n : Fin 32) : idx_main_call0_v1 (ix2 b n) = ix2 (⟨0, Nat.one_pos⟩ : Fin 1) n :=
  funext fun a => Fin.ext (by match a with | ⟨0, _⟩ => rfl | ⟨1, _⟩ => rfl)

/-- The scaled weight total as a row reads bin n. -/
theorem idx_v49 (n : Fin 32) : idx_main_v49 (ix2 (⟨0, Nat.one_pos⟩ : Fin 1) n) = ix1 n :=
  funext fun a => Fin.ext (by match a with | ⟨0, _⟩ => rfl)

/-- Column k of bin n of the weights. -/
theorem idx_v46 (n : Fin 32) (k : Fin 640) : idx_main_v46 (ix1 n) k = ix2 n k :=
  funext fun a => Fin.ext (by match a with | ⟨0, _⟩ => rfl | ⟨1, _⟩ => rfl)

/-! ## The stages at coordinates -/
/-- The blended, scaled depth at a pixel of the crop. -/
theorem v12_at (b : Fin 64) (h : Fin 288) (w : Fin 640) :
    val_main_v12 (F := Ideal) x0 x1 (ix3 b h w) = Cert.Spec.negBlend x0 x1 b h w := by
  rw [val_main_v12_apply, val_main_v11_apply, val_main_cst_2_apply, val_main_v7_apply, val_main_v2_apply,
    val_main_v6_apply, val_main_v4_apply, val_main_v3_apply, val_main_cst_apply, val_main_v5_apply, val_main_cst_0_apply,
    val_main_v0_apply, val_main_v1_apply]
  simp only [idx_v0, idx_v1, Ideal.mulf_def, Ideal.addf_def, Ideal.subf_def, Ideal.ofBits_def]
  rfl

/-- The blended depth at the row put back into the reduced index (b, w). -/
theorem v12_lift (b : Fin 64) (w : Fin 640) (k : Fin 288) :
    val_main_v12 (F := Ideal) x0 x1 (reduces_rows.lift (ix2 b w) k) = Cert.Spec.negBlend x0 x1 b k w := by
  rw [lift_rows reduces_rows b w k]
  exact v12_at x0 x1 b k w

/-- The column maximum: the fold of max from −∞ over the 288 rows. -/
theorem v13_at (b : Fin 64) (w : Fin 640) :
    val_main_v13 (F := Ideal) x0 x1 (ix2 b w) = Cert.Spec.colMax x0 x1 b w := by
  unfold val_main_v13
  rw [Host.reduce_eq_fold_single FloatOps.maximumf _ _ _ reduces_rows]
  have hf : (val_main_v12 (F := Ideal) x0 x1 ∘ reduces_rows.lift (ix2 b w)) = fun k : Fin 288 => Cert.Spec.negBlend x0 x1 b k w :=
    funext fun k => Function.comp_apply.trans (v12_lift x0 x1 b w k)
  unfold Cert.Spec.colMax
  exact congrArg (fun f => Finset.fold max (Ideal.ofBits .f32 0xFF800000#32) f (Finset.univ : Finset (Fin 288))) hf

/-- The masked, shifted exponential at a pixel of the crop. -/
theorem v18_at (b : Fin 64) (h : Fin 288) (w : Fin 640) :
    val_main_v18 (F := Ideal) x0 x1 (ix3 b h w)
      = Ideal.exp (Cert.Spec.negBlend x0 x1 b h w - Cert.Spec.colMax x0 x1 b w) * x1 (ix3 b (Cert.Spec.row h) w) := by
  rw [val_main_v18_apply, val_main_v17_apply, val_main_v16_apply, val_main_v15_apply, val_main_v14_apply,
    val_main_v1_apply, idx_v1, idx_v14_v15, v12_at, v13_at]
  rfl

/-- The column sum. -/
theorem v19_at (b : Fin 64) (w : Fin 640) :
    val_main_v19 (F := Ideal) x0 x1 (ix2 b w) = Cert.Spec.colSum x0 x1 b w := by
  rw [val_main_v19_apply, val_main_cst_4_apply, Ideal.ofBits_def]
  unfold Cert.Spec.colSum
  refine congrArg (_ + ·) (Finset.sum_congr rfl fun k _ => ?_)
  rw [idx_v19, v18_at]

/-- The log of a bin weight. -/
theorem v10_at (n : Fin 32) (w : Fin 640) :
    val_main_v10 (F := Ideal) x2 (ix2 n w) = Cert.Spec.logW x2 n w := by
  rw [val_main_v10_apply, val_main_v9_apply, val_main_v8_apply, val_main_cst_1_apply]
  rfl

/-- The column maximum plus the log weight, per batch, bin and column. -/
theorem v24_at (b : Fin 64) (n : Fin 32) (w : Fin 640) :
    val_main_v24 (F := Ideal) x0 x1 x2 (ix3 b n w) = Cert.Spec.colMax x0 x1 b w + Cert.Spec.logW x2 n w := by
  rw [val_main_v24_apply, val_main_v22_apply, val_main_v20_apply, val_main_v23_apply, val_main_v21_apply,
    idx_v20_v22, idx_v21_v23, v13_at, v10_at]
  rfl

/-- The column maximum plus the log weight at the column put back into the reduced index (b, n). -/
theorem v24_lift (b : Fin 64) (n : Fin 32) (k : Fin 640) :
    val_main_v24 (F := Ideal) x0 x1 x2 (reduces_cols.lift (ix2 b n) k)
      = Cert.Spec.colMax x0 x1 b k + Cert.Spec.logW x2 n k := by
  rw [lift_cols reduces_cols b n k]
  exact v24_at x0 x1 x2 b n k

/-- The bin maximum: the fold of max from −∞ over the 640 columns. -/
theorem v25_at (b : Fin 64) (n : Fin 32) :
    val_main_v25 (F := Ideal) x0 x1 x2 (ix2 b n) = Cert.Spec.binMax x0 x1 x2 b n := by
  unfold val_main_v25
  rw [Host.reduce_eq_fold_single FloatOps.maximumf _ _ _ reduces_cols]
  have hf : (val_main_v24 (F := Ideal) x0 x1 x2 ∘ reduces_cols.lift (ix2 b n))
      = fun k : Fin 640 => Cert.Spec.colMax x0 x1 b k + Cert.Spec.logW x2 n k :=
    funext fun k => Function.comp_apply.trans (v24_lift x0 x1 x2 b n k)
  unfold Cert.Spec.binMax
  exact congrArg (fun f => Finset.fold max (Ideal.ofBits .f32 0xFF800000#32) f (Finset.univ : Finset (Fin 640))) hf

/-- The shifted exponential times the column sum, per batch, bin and column. -/
theorem v37_at (b : Fin 64) (n : Fin 32) (w : Fin 640) :
    val_main_v37 (F := Ideal) x0 x1 x2 (ix3 b n w)
      = Ideal.exp ((Cert.Spec.logW x2 n w + Cert.Spec.colMax x0 x1 b w) - Cert.Spec.binMax x0 x1 x2 b n)
          * Cert.Spec.colSum x0 x1 b w := by
  rw [val_main_v37_apply, val_main_v34_apply, val_main_v33_apply, val_main_v30_apply, val_main_v28_apply,
    val_main_v26_apply, val_main_v29_apply, val_main_v27_apply, val_main_v32_apply, val_main_v31_apply,
    val_main_v36_apply, val_main_v35_apply, idx_v26_v28, idx_v27_v29, idx_v31_v32, idx_v35_v36, v10_at, v13_at,
    v25_at, v19_at]
  rfl

/-- The bin sum. -/
theorem v38_at (b : Fin 64) (n : Fin 32) :
    val_main_v38 (F := Ideal) x0 x1 x2 (ix2 b n) = Cert.Spec.binSum x0 x1 x2 b n := by
  rw [val_main_v38_apply, val_main_cst_6_apply, Ideal.ofBits_def]
  unfold Cert.Spec.binSum
  refine congrArg (_ + ·) (Finset.sum_congr rfl fun k _ => ?_)
  rw [idx_v38, v37_at]

/-- THE REFERENCE'S CLEARANCE IS THE SPECIFICATION'S, at every batch and bin. -/
theorem clearance_eq (b : Fin 64) (n : Fin 32) :
    val_main_v45 (F := Ideal) x0 x1 x2 (ix2 b n) = Cert.Spec.clearance x0 x1 x2 b n := by
  rw [val_main_v45_apply, val_main_v43_apply, val_main_v42_apply, val_main_v41_apply, val_main_v40_apply,
    val_main_v39_apply, val_main_cst_7_apply, val_main_v44_apply, val_main_cst_8_apply, v25_at, v38_at]
  rfl

/-! ## The guard on empty bins and the result -/

/-- The total weight of bin n: zero plus the sum over the 640 columns. -/
theorem v46_at (n : Fin 32) :
    val_main_v46 (F := Ideal) x2 (ix1 n) = Cert.Spec.k0 + ∑ w : Fin 640, x2 (ix2 n w) := by
  rw [val_main_v46_apply, val_main_cst_9_apply, Ideal.ofBits_def]
  refine congrArg (_ + ·) (Finset.sum_congr rfl fun k _ => ?_)
  rw [idx_v46]

/-- The guard bit of bin n (the same for every batch): the total weight times 288 is below 1e-6. -/
theorem guard_at (b : Fin 64) (n : Fin 32) :
    val_main_call0_v1 (F := Ideal) x2 (ix2 b n)
      = Ideal.cmp .olt ((Cert.Spec.k0 + ∑ w : Fin 640, x2 (ix2 n w)) * Ideal.ofBits .f32 0x43900000#32)
          (Ideal.ofBits .f32 0x358637BD#32) := by
  rw [val_main_call0_v1_apply, val_main_v51_apply, val_main_v49_apply, val_main_v48_apply, val_main_v47_apply,
    val_main_cst_10_apply, val_main_v50_apply, val_main_cst_11_apply, idx_call0_v1, idx_v49, v46_at]
  rfl

/-- THE REFERENCE'S RESULT at batch b and bin n: 100 where the bin's guard bit is set, the clearance elsewhere. -/
theorem v52_at (b : Fin 64) (n : Fin 32) :
    val_main_v52 (F := Ideal) x0 x1 x2 (ix2 b n)
      = Scalar.select
          (Ideal.cmp .olt ((Cert.Spec.k0 + ∑ w : Fin 640, x2 (ix2 n w)) * Ideal.ofBits .f32 0x43900000#32)
            (Ideal.ofBits .f32 0x358637BD#32))
          Cert.Spec.k100 (val_main_v45 (F := Ideal) x0 x1 x2 (ix2 b n)) := by
  rw [val_main_v52_apply, guard_at, val_main_call0_v2_apply, val_main_call0_v0_apply, val_main_cst_12_apply]
  rfl

/-- The same with the clearance read as the specification's. -/
theorem v52_spec (b : Fin 64) (n : Fin 32) :
    val_main_v52 (F := Ideal) x0 x1 x2 (ix2 b n)
      = Scalar.select
          (Ideal.cmp .olt ((Cert.Spec.k0 + ∑ w : Fin 640, x2 (ix2 n w)) * Ideal.ofBits .f32 0x43900000#32)
            (Ideal.ofBits .f32 0x358637BD#32))
          Cert.Spec.k100 (Cert.Spec.clearance x0 x1 x2 b n) := by
  rw [v52_at, clearance_eq]

end Cert.RefAt

end
-- ==== Proof.Claims.lean ====
/-
  The five claims of the certificate.

  Frames: the kernel (at the word level and over the extended reals) and the reference terminate without fault and leave
  their argument arrays unchanged — the kernel's two by its frame run, the reference's by its run with the result dropped.
  The idealization rewrote nothing, so its claim is trivial.

  The equality, over the extended reals and under the precondition (every input finite, every mask entry 0 or 1): the
  kernel's result is the zero-weight guard applied to the clearance in the three-step form — a running column maximum
  and rescaled column sum stepped over three blocks of 96 rows, the per-pixel value selected on the mask being positive —
  and the reference's is the same guard applied to the clearance in the two-pass form — the column maximum over all 288
  rows, then the shifted sum, the per-pixel value blended with the mask. On a 0/1 mask the selection is the blend, and
  over the reals the three-step recurrence telescopes to the two-pass form (exp (a − b) · exp (b − c) = exp (a − c)), so
  the two clearances agree index by index; the guard is the same function on both sides.
-/
import proofs.«102616_j69973607186476_2_alg».proof.Proof.Gen.Kernel
import proofs.«102616_j69973607186476_2_alg».proof.Proof.Gen.Kernel.Frame
import proofs.«102616_j69973607186476_2_alg».proof.Proof.Gen.KernelIdeal
import proofs.«102616_j69973607186476_2_alg».proof.Proof.Gen.KernelIdeal.Frame
import proofs.«102616_j69973607186476_2_alg».proof.Proof.Gen.ReferenceIdeal
import proofs.«102616_j69973607186476_2_alg».proof.Proof.Gen.ReferenceIdeal.Run
import proofs.«102616_j69973607186476_2_alg».proof.Proof.Gen.ReferenceIdeal.Read
import proofs.«102616_j69973607186476_2_alg».proof.Proof.Gen.Pre_finite_inputs
import proofs.«102616_j69973607186476_2_alg».proof.Proof.Spec
import proofs.«102616_j69973607186476_2_alg».proof.Proof.PreFacts
import proofs.«102616_j69973607186476_2_alg».proof.Proof.Bridge
import proofs.«102616_j69973607186476_2_alg».proof.Proof.HostSide
import proofs.«102616_j69973607186476_2_alg».proof.Proof.Blocks
import proofs.«102616_j69973607186476_2_alg».proof.Proof.KernelValue
import proofs.«102616_j69973607186476_2_alg».proof.Proof.KernelRun
import proofs.«102616_j69973607186476_2_alg».proof.Proof.RefAt
import proofs.«102616_j69973607186476_2_alg».proof.Defs
import Idealize.ShloMosaic.Lib.ValueIdx

set_option maxRecDepth 16384

noncomputable section

open Idealize.ShloMosaic Idealize.ShloMosaic.TcCoe Idealize.SL.Sem Idealize.ShloMosaic.ValueIdx

namespace Cert.Proof.Claims

/-! ## The frames and the idealization -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-! ## The two results are one function of the arguments -/

/-- The reference replaces the bins of near-zero total weight by 100 with the same operations as the kernel's host
    tail: its result is that guard applied to its clearance array. -/
theorem ref_tail (x0 x1 : FVec Ideal Cert.ReferenceIdeal.S64x480x640 .f32) (x2 : FVec Ideal Cert.ReferenceIdeal.S32x640 .f32) :
    Cert.ReferenceIdeal.Read.val_main_v52 (F := Ideal) x0 x1 x2
      = Cert.KernelIdeal.HostSide.tail (F := Ideal) x2 (Cert.ReferenceIdeal.Read.val_main_v45 (F := Ideal) x0 x1 x2) := rfl

open Cert.KernelIdeal in
/-- Under the precondition — every depth a real number, every mask entry 0 or 1 — the clearance array the kernel's
    region leaves (three-step form) is the reference's (two-pass form), index by index. -/
theorem clearance_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread nD τ).loc main_arg0)) (m ((c.tc : Thread nD τ).loc main_arg1))
        (m ((c.tc : Thread nD τ).loc main_arg2)) = fun _ => 1#1) :
    Cert.KernelIdeal.KernelValue.G m c (Cert.KernelIdeal.KernelRun.Wt m c)
      = Cert.ReferenceIdeal.Read.val_main_v45 (F := Ideal) (m ((c.tc : Thread nD τ).loc main_arg0))
          (m ((c.tc : Thread nD τ).loc main_arg1)) (m ((c.tc : Thread nD τ).loc main_arg2)) := by
  have eD : Cert.KernelIdeal.Blocks.D m c = m ((c.tc : Thread nD τ).loc main_arg0) := Cert.KernelIdeal.Gen.V_main_arg0 m c
  have eK : Cert.KernelIdeal.Blocks.K m c = m ((c.tc : Thread nD τ).loc main_arg1) := Cert.KernelIdeal.Gen.V_main_arg1 m c
  have hD : ∀ i : Cert.Spec.SImg.Idx, ∃ r : ℝ, Cert.KernelIdeal.Blocks.D m c i = ((r : ℝ) : EReal) := fun i => by
    rw [eD]; exact Cert.PreFacts.depth_real _ _ _ hpre i
  have hK : ∀ i : Cert.Spec.SImg.Idx, Cert.KernelIdeal.Blocks.K m c i = 0 ∨ Cert.KernelIdeal.Blocks.K m c i = 1 := fun i => by
    rw [eK]; exact Cert.PreFacts.mask_binary _ _ _ hpre i
  funext i
  obtain ⟨b, n, rfl⟩ : ∃ (b : Fin 64) (n : Fin 32), i = ix2 b n := ⟨i 0, i 1, eq_ix2 i⟩
  show Cert.Spec.clearance3 (Cert.KernelIdeal.Blocks.D m c) (Cert.KernelIdeal.Blocks.K m c) (Cert.KernelIdeal.KernelRun.Wt m c) b n = _
  rw [Cert.Bridge.clearance3_eq _ _ _ hD hK b n, ← Cert.RefAt.clearance_eq, eD, eK]

/-- At the ideal instance the kernel ends at the guard applied to the three-step clearance of its arguments and the
    reference at the guard applied to the two-pass clearance of arguments that agree with them: one array. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, ref_tail, (hagree c).1, (hagree c).2.1, (hagree c).2.2]
  exact (congrArg (Cert.KernelIdeal.HostSide.tail (F := Ideal) _) (clearance_eq m c (hpre c))).symm

end Cert.Proof.Claims

end
-- ==== Proof.lean ====
/-
  `Cert.Claim` for the depth-to-clearance reduction: per batch and per angular bin, a weighted log-sum-exp soft minimum
  of the depths over the bottom 288 rows of a 480 × 640 image, with invalid pixels read as 100 m, and bins of near-zero
  total weight set to 100.

  The kernel streams the cropped rows in three blocks of 96 per batch block, keeping a running column maximum and a
  rescaled running column sum, and combines them with the log-weights at the last block; the reference takes the column
  maximum and the shifted column sum in two passes. Over the extended reals, for finite inputs and a 0/1 mask, the two
  compute the same array: the parts are in Proof/Claims.lean, the witnesses of the programs' stated side conditions are
  the generated instances.
-/
import proofs.«102616_j69973607186476_2_alg».proof.Defs
import proofs.«102616_j69973607186476_2_alg».proof.Proof.Gen.Kernel
import proofs.«102616_j69973607186476_2_alg».proof.Proof.Gen.Kernel.Skeleton
import proofs.«102616_j69973607186476_2_alg».proof.Proof.Gen.Kernel.Launch
import proofs.«102616_j69973607186476_2_alg».proof.Proof.Gen.Kernel.Points
import proofs.«102616_j69973607186476_2_alg».proof.Proof.Gen.Kernel.Frame
import proofs.«102616_j69973607186476_2_alg».proof.Proof.Gen.KernelIdeal
import proofs.«102616_j69973607186476_2_alg».proof.Proof.Gen.KernelIdeal.Skeleton
import proofs.«102616_j69973607186476_2_alg».proof.Proof.Gen.KernelIdeal.Launch
import proofs.«102616_j69973607186476_2_alg».proof.Proof.Gen.KernelIdeal.Points
import proofs.«102616_j69973607186476_2_alg».proof.Proof.Gen.KernelIdeal.Frame
import proofs.«102616_j69973607186476_2_alg».proof.Proof.Gen.ReferenceIdeal
import proofs.«102616_j69973607186476_2_alg».proof.Proof.Gen.ReferenceIdeal.Run
import proofs.«102616_j69973607186476_2_alg».proof.Proof.Gen.ReferenceIdeal.Read
import proofs.«102616_j69973607186476_2_alg».proof.Proof.Gen.Pre_finite_inputs
import proofs.«102616_j69973607186476_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
